-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S131072x2x116 : Shape := ⟨3, ![131072, 2, 116]⟩
abbrev S464x64 : Shape := ⟨2, ![464, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩

class Facts : Prop where
  bcast_S_S131072x2x116 : S_.BroadcastsInDim S131072x2x116 (![] : Fin 0 → Fin S131072x2x116.rank)
  reducesTo_S131072x2x116_S_d0_1_2 : S131072x2x116.ReducesTo [0, 1, 2] S_
  h_S_ : 0 < S_.numel
  bcast_S_S464x64 : S_.BroadcastsInDim S464x64 (![] : Fin 0 → Fin S464x64.rank)
  reducesTo_S464x64_S_d0_1 : S464x64.ReducesTo [0, 1] S_
  bcast_S_S64 : S_.BroadcastsInDim S64 (![] : Fin 0 → Fin S64.rank)
  reducesTo_S64_S_d0 : S64.ReducesTo [0] S_
  bcast_S_S64x32 : S_.BroadcastsInDim S64x32 (![] : Fin 0 → Fin S64x32.rank)
  reducesTo_S64x32_S_d0_1 : S64x32.ReducesTo [0, 1] S_
  bcast_S_S32 : S_.BroadcastsInDim S32 (![] : Fin 0 → Fin S32.rank)
  reducesTo_S32_S_d0 : S32.ReducesTo [0] S_
  bcast_S_S32x2 : S_.BroadcastsInDim S32x2 (![] : Fin 0 → Fin S32x2.rank)
  reducesTo_S32x2_S_d0_1 : S32x2.ReducesTo [0, 1] S_
  bcast_S_S2 : S_.BroadcastsInDim S2 (![] : Fin 0 → Fin S2.rank)
  reducesTo_S2_S_d0 : S2.ReducesTo [0] S_

variable [Facts]

def fn_part2 {F : FTy → Type} [FloatOps F] (main_arg7 : FVec F S2 .f32) (main_v33 : IVec S_ 1) : IVec S_ 1 :=
  let main_v34 : FVec F S2 .f32 := Host.absf main_arg7
  let main_cst_12 : FVec F S_ .f32 := constant S_ .f32 0x7F800000#32
  let main_v35 : FVec F S2 .f32 := broadcastInDim S2 ![] bcast_S_S2 main_cst_12
  let main_v36 : IVec S2 1 := cmpf .olt main_v34 main_v35
  let main_c_13 : IVec S_ 1 := constantI S_ 1 1#1
  let main_v37 : IVec S_ 1 := (fun x v => Host.reduce IntOp.andi x v reducesTo_S2_S_d0 h_S_) main_v36 main_c_13
  let main_v38 : IVec S_ 1 := andi main_v33 main_v37
  main_v38

def fn_part1 {F : FTy → Type} [FloatOps F] (main_arg4 : FVec F S64x32 .f32) (main_arg5 : FVec F S32 .f32) (main_arg6 : FVec F S32x2 .f32) (main_arg7 : FVec F S2 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64x32 .f32 := Host.absf main_arg4
  let main_cst_6 : FVec F S_ .f32 := constant S_ .f32 0x7F800000#32
  let main_v20 : FVec F S64x32 .f32 := broadcastInDim S64x32 ![] bcast_S_S64x32 main_cst_6
  let main_v21 : IVec S64x32 1 := cmpf .olt main_v19 main_v20
  let main_c_7 : IVec S_ 1 := constantI S_ 1 1#1
  let main_v22 : IVec S_ 1 := (fun x v => Host.reduce IntOp.andi x v reducesTo_S64x32_S_d0_1 h_S_) main_v21 main_c_7
  let main_v23 : IVec S_ 1 := andi main_v18 main_v22
  let main_v24 : FVec F S32 .f32 := Host.absf main_arg5
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32x2 .f32 := Host.absf main_arg6
  let main_cst_10 : FVec F S_ .f32 := constant S_ .f32 0x7F800000#32
  let main_v30 : FVec F S32x2 .f32 := broadcastInDim S32x2 ![] bcast_S_S32x2 main_cst_10
  let main_v31 : IVec S32x2 1 := cmpf .olt main_v29 main_v30
  let main_c_11 : IVec S_ 1 := constantI S_ 1 1#1
  let main_v32 : IVec S_ 1 := (fun x v => Host.reduce IntOp.andi x v reducesTo_S32x2_S_d0_1 h_S_) main_v31 main_c_11
  let main_v33 : IVec S_ 1 := andi main_v28 main_v32
  fn_part2 (F := F) main_arg7 main_v33

def fn {F : FTy → Type} [FloatOps F] (main_arg0 : FVec F S131072x2x116 .f32) (main_arg1 : FVec F S131072x2x116 .f32) (main_arg2 : FVec F S464x64 .f32) (main_arg3 : FVec F S64 .f32) (main_arg4 : FVec F S64x32 .f32) (main_arg5 : FVec F S32 .f32) (main_arg6 : FVec F S32x2 .f32) (main_arg7 : FVec F S2 .f32) : IVec S_ 1 :=
  let main_v0 : FVec F S131072x2x116 .f32 := Host.absf main_arg0
  let main_cst : FVec F S_ .f32 := constant S_ .f32 0x7F800000#32
  let main_v1 : FVec F S131072x2x116 .f32 := broadcastInDim S131072x2x116 ![] bcast_S_S131072x2x116 main_cst
  let main_v2 : IVec S131072x2x116 1 := cmpf .olt main_v0 main_v1
  let main_c : IVec S_ 1 := constantI S_ 1 1#1
  let main_v3 : IVec S_ 1 := (fun x v => Host.reduce IntOp.andi x v reducesTo_S131072x2x116_S_d0_1_2 h_S_) main_v2 main_c
  let main_v4 : FVec F S131072x2x116 .f32 := Host.absf main_arg1
  let main_cst_0 : FVec F S_ .f32 := constant S_ .f32 0x7F800000#32
  let main_v5 : FVec F S131072x2x116 .f32 := broadcastInDim S131072x2x116 ![] bcast_S_S131072x2x116 main_cst_0
  let main_v6 : IVec S131072x2x116 1 := cmpf .olt main_v4 main_v5
  let main_c_1 : IVec S_ 1 := constantI S_ 1 1#1
  let main_v7 : IVec S_ 1 := (fun x v => Host.reduce IntOp.andi x v reducesTo_S131072x2x116_S_d0_1_2 h_S_) main_v6 main_c_1
  let main_v8 : IVec S_ 1 := andi main_v3 main_v7
  let main_v9 : FVec F S464x64 .f32 := Host.absf main_arg2
  let main_cst_2 : FVec F S_ .f32 := constant S_ .f32 0x7F800000#32
  let main_v10 : FVec F S464x64 .f32 := broadcastInDim S464x64 ![] bcast_S_S464x64 main_cst_2
  let main_v11 : IVec S464x64 1 := cmpf .olt main_v9 main_v10
  let main_c_3 : IVec S_ 1 := constantI S_ 1 1#1
  let main_v12 : IVec S_ 1 := (fun x v => Host.reduce IntOp.andi x v reducesTo_S464x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_v13 main_v16
-- ==== Kernel.lean ====
abbrev S131072x2x116 : Shape := ⟨3, ![131072, 2, 116]⟩
abbrev S464x64 : Shape := ⟨2, ![464, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S131072x232 : Shape := ⟨2, ![131072, 232]⟩
abbrev S232x64 : Shape := ⟨2, ![232, 64]⟩
abbrev S131072x2 : Shape := ⟨2, ![131072, 2]⟩
abbrev S2048x232 : Shape := ⟨2, ![2048, 232]⟩
abbrev S2048x2 : Shape := ⟨2, ![2048, 2]⟩
abbrev S2048x116 : Shape := ⟨2, ![2048, 116]⟩
abbrev S2048x64 : Shape := ⟨2, ![2048, 64]⟩
abbrev S1x64 : Shape := ⟨2, ![1, 64]⟩
abbrev S2048x32 : Shape := ⟨2, ![2048, 32]⟩
abbrev S1x32 : Shape := ⟨2, ![1, 32]⟩
abbrev S1x2 : Shape := ⟨2, ![1, 2]⟩
abbrev S2048 : Shape := ⟨1, ![2048]⟩
abbrev S2048x1 : Shape := ⟨2, ![2048, 1]⟩

abbrev nBuf : Space → Nat
  | .hbm => 13
  | .vmem => 13
  | .smem => 0
  | _ => 0

abbrev bufTy : (tb : Table) → Fin (tcTables nBuf tb) → BufTy
  | .hbm, ⟨0, _⟩ => ⟨S131072x2x116, .f32⟩
  | .hbm, ⟨1, _⟩ => ⟨S131072x2x116, .f32⟩
  | .hbm, ⟨2, _⟩ => ⟨S464x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x2, .f32⟩
  | .hbm, ⟨7, _⟩ => ⟨S2, .f32⟩
  | .hbm, ⟨8, _⟩ => ⟨S131072x232, .f32⟩
  | .hbm, ⟨9, _⟩ => ⟨S131072x232, .f32⟩
  | .hbm, ⟨10, _⟩ => ⟨S232x64, .f32⟩
  | .hbm, ⟨11, _⟩ => ⟨S232x64, .f32⟩
  | .hbm, ⟨12, _⟩ => ⟨S131072x2, .f32⟩
  | .local _ .vmem, ⟨0, _⟩ => ⟨S2048x232, .f32⟩
  | .local _ .vmem, ⟨1, _⟩ => ⟨S2048x232, .f32⟩
  | .local _ .vmem, ⟨2, _⟩ => ⟨S2048x232, .f32⟩
  | .local _ .vmem, ⟨3, _⟩ => ⟨S2048x232, .f32⟩
  | .local _ .vmem, ⟨4, _⟩ => ⟨S232x64, .f32⟩
  | .local _ .vmem, ⟨5, _⟩ => ⟨S232x64, .f32⟩
  | .local _ .vmem, ⟨6, _⟩ => ⟨S64, .f32⟩
  | .local _ .vmem, ⟨7, _⟩ => ⟨S64x32, .f32⟩
  | .local _ .vmem, ⟨8, _⟩ => ⟨S32, .f32⟩
  | .local _ .vmem, ⟨9, _⟩ => ⟨S32x2, .f32⟩
  | .local _ .vmem, ⟨10, _⟩ => ⟨S2, .f32⟩
  | .local _ .vmem, ⟨11, _⟩ => ⟨S2048x2, .f32⟩
  | .local _ .vmem, ⟨12, _⟩ => ⟨S2048x2, .f32⟩
  | _, _ => ⟨S131072x2x116, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_v0 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2048x232 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2048x232 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S232x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S232x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S64x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S32x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S2 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S2048x2 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  shapeCasts_S131072x2x116_S131072x232 : S131072x2x116.ShapeCasts S131072x232
  slices_S464x64_S232x64_0_0 : S464x64.Slices ![0, 0] S232x64
  slices_S464x64_S232x64_232_0 : S464x64.Slices ![232, 0] S232x64
  inb_S2048x232_S2048x232_0_0 : ∀ a, (![0, 0] : Fin 2 → Nat) a + S2048x232.size a ≤ S2048x232.size a
  h_S2048x232 : 0 < S2048x232.numel
  shapeCasts_S2048x232_S2048x232 : S2048x232.ShapeCasts S2048x232
  slices_S2048x232_o0_0_S2048x116 : S2048x232.Slices ![0, 0] S2048x116
  slices_S2048x232_o0_116_S2048x116 : S2048x232.Slices ![0, 116] S2048x116
  concatenates_S2048x116_S2048x116_S2048x232_d1 : Shape.Concatenates [S2048x116, S2048x116] S2048x232 1
  bitsLt_bf16_f32 : FTy.bits .bf16 < FTy.bits .f32
  inb_S232x64_S232x64_0_0 : ∀ a, (![0, 0] : Fin 2 → Nat) a + S232x64.size a ≤ S232x64.size a
  h_S232x64 : 0 < S232x64.numel
  shapeCasts_S232x64_S232x64 : S232x64.ShapeCasts S232x64
  inb_S64_S64_0 : ∀ a, (![0] : Fin 1 → Nat) a + S64.size a ≤ S64.size a
  h_S64 : 0 < S64.numel
  shapeCasts_S64_S1x64 : S64.ShapeCasts S1x64
  broadcasts_S1x64_S2048x64 : S1x64.Broadcasts S2048x64
  inb_S64x32_S64x32_0_0 : ∀ a, (![0, 0] : Fin 2 → Nat) a + S64x32.size a ≤ S64x32.size a
  h_S64x32 : 0 < S64x32.numel
  inb_S32_S32_0 : ∀ a, (![0] : Fin 1 → Nat) a + S32.size a ≤ S32.size a
  h_S32 : 0 < S32.numel
  shapeCasts_S32_S1x32 : S32.ShapeCasts S1x32
  broadcasts_S1x32_S2048x32 : S1x32.Broadcasts S2048x32
  inb_S32x2_S32x2_0_0 : ∀ a, (![0, 0] : Fin 2 → Nat) a + S32x2.size a ≤ S32x2.size a
  h_S32x2 : 0 < S32x2.numel
  inb_S2_S2_0 : ∀ a, (![0] : Fin 1 → Nat) a + S2.size a ≤ S2.size a
  h_S2 : 0 < S2.numel
  shapeCasts_S2_S1x2 : S2.ShapeCasts S1x2
  broadcasts_S1x2_S2048x2 : S1x2.Broadcasts S2048x2
  reduces_S2048x2_S2048 : S2048x2.Reduces [1] S2048
  shapeCasts_S2048_S2048x1 : S2048.ShapeCasts S2048x1
  broadcasts_S2048x1_S2048x2 : S2048x1.Broadcasts S2048x2
  inb_S2048x2_S2048x2_0_0 : ∀ a, (![0, 0] : Fin 2 → Nat) a + S2048x2.size a ≤ S2048x2.size a
  h_S2048x2 : 0 < S2048x2.numel
  dot_S2048x232_S232x64_S2048x64_1_0_0_1_n_n_wf : DotDims.WF S2048x232 S232x64 S2048x64 [1] [0] [0] [1] [] []
  dot_S2048x64_S64x32_S2048x32_1_0_0_1_n_n_wf : DotDims.WF S2048x64 S64x32 S2048x32 [1] [0] [0] [1] [] []
  dot_S2048x32_S32x2_S2048x2_1_0_0_1_n_n_wf : DotDims.WF S2048x32 S32x2 S2048x2 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2048x232.size a ≤ S131072x232.size a
  hwx0_0 : ∀ i : grid0.Coords, EltTy.bits .f32 = 32 ∨ (Rect.block (s := S131072x232) S2048x232.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2048x232.size a ≤ S131072x232.size a
  hwx0_1 : ∀ i : grid0.Coords, EltTy.bits .f32 = 32 ∨ (Rect.block (s := S131072x232) S2048x232.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S232x64.size a ≤ S232x64.size a
  hwx0_2 : ∀ i : grid0.Coords, EltTy.bits .f32 = 32 ∨ (Rect.block (s := S232x64) S232x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S232x64.size a ≤ S232x64.size a
  hwx0_3 : ∀ i : grid0.Coords, EltTy.bits .f32 = 32 ∨ (Rect.block (s := S232x64) S232x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64.size a ≤ S64.size a
  hwx0_4 : ∀ i : grid0.Coords, EltTy.bits .f32 = 32 ∨ (Rect.block (s := S64) S64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S64x32.size a ≤ S64x32.size a
  hwx0_5 : ∀ i : grid0.Coords, EltTy.bits .f32 = 32 ∨ (Rect.block (s := S64x32) S64x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S32.size a ≤ S32.size a
  hwx0_6 : ∀ i : grid0.Coords, EltTy.bits .f32 = 32 ∨ (Rect.block (s := S32) S32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S32x2.size a ≤ S32x2.size a
  hwx0_7 : ∀ i : grid0.Coords, EltTy.bits .f32 = 32 ∨ (Rect.block (s := S32x2) S32x2.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S2.size a ≤ S2.size a
  hwx0_8 : ∀ i : grid0.Coords, EltTy.bits .f32 = 32 ∨ (Rect.block (s := S2) S2.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S2048x2.size a ≤ S131072x2.size a
  hwx0_9 : ∀ i : grid0.Coords, EltTy.bits .f32 = 32 ∨ (Rect.block (s := S131072x2) S2048x2.size (cc0_transform_9 i) (hinb0_9 i)).WholeWords (EltTy.packing .f32)

variable [Facts₀]

def dot_S2048x232_S232x64_S2048x64_1_0_0_1_n_n : DotDims S2048x232 S232x64 S2048x64 where
  lhsContracting := [1]
  rhsContracting := [0]
  lhsNonContracting := [0]
  rhsNonContracting := [1]
  lhsBatch := []
  rhsBatch := []
  wf := dot_S2048x232_S232x64_S2048x64_1_0_0_1_n_n_wf
def dot_S2048x64_S64x32_S2048x32_1_0_0_1_n_n : DotDims S2048x64 S64x32 S2048x32 where
  lhsContracting := [1]
  rhsContracting := [0]
  lhsNonContracting := [0]
  rhsNonContracting := [1]
  lhsBatch := []
  rhsBatch := []
  wf := dot_S2048x64_S64x32_S2048x32_1_0_0_1_n_n_wf
def dot_S2048x32_S32x2_S2048x2_1_0_0_1_n_n : DotDims S2048x32 S32x2 S2048x2 where
  lhsContracting := [1]
  rhsContracting := [0]
  lhsNonContracting := [0]
  rhsNonContracting := [1]
  lhsBatch := []
  rhsBatch := []
  wf := dot_S2048x32_S32x2_S2048x2_1_0_0_1_n_n_wf

abbrev win0_0 : Pipeline.Window sig grid0 :=
  Pipeline.Window.ofSpec (Memref.whole main_call0_v0) S2048x232.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_call0_v1) S2048x232.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_call0_v2) S232x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_call0_v3) S232x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg4) S64x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg5) S32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg6) S32x2.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_arg7) S2.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v0) S2048x2.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S131072x2x116 : Shape := ⟨3, ![131072, 2, 116]⟩
abbrev S464x64 : Shape := ⟨2, ![464, 64]⟩
abbrev S64 : Shape := ⟨1, ![64]⟩
abbrev S64x32 : Shape := ⟨2, ![64, 32]⟩
abbrev S32 : Shape := ⟨1, ![32]⟩
abbrev S32x2 : Shape := ⟨2, ![32, 2]⟩
abbrev S2 : Shape := ⟨1, ![2]⟩
abbrev S_ : Shape := ⟨0, ![]⟩
abbrev S131072x116 : Shape := ⟨2, ![131072, 116]⟩
abbrev S131072x1x116 : Shape := ⟨3, ![131072, 1, 116]⟩
abbrev S131072x4x116 : Shape := ⟨3, ![131072, 4, 116]⟩
abbrev S131072x464 : Shape := ⟨2, ![131072, 464]⟩
abbrev S131072x64 : Shape := ⟨2, ![131072, 64]⟩
abbrev S1x64 : Shape := ⟨2, ![1, 64]⟩
abbrev S131072x32 : Shape := ⟨2, ![131072, 32]⟩
abbrev S1x32 : Shape := ⟨2, ![1, 32]⟩
abbrev S131072x2 : Shape := ⟨2, ![131072, 2]⟩
abbrev S1x2 : Shape := ⟨2, ![1, 2]⟩
abbrev S131072 : Shape := ⟨1, ![131072]⟩
abbrev S131072x1 : Shape := ⟨2, ![131072, 1]⟩

abbrev nBuf : Space → Nat
  | .hbm => 66
  | .vmem => 0
  | .smem => 0
  | _ => 0

abbrev bufTy : (tb : Table) → Fin (tcTables nBuf tb) → BufTy
  | .hbm, ⟨0, _⟩ => ⟨S131072x2x116, .f32⟩
  | .hbm, ⟨1, _⟩ => ⟨S131072x2x116, .f32⟩
  | .hbm, ⟨2, _⟩ => ⟨S464x64, .f32⟩
  | .hbm, ⟨3, _⟩ => ⟨S64, .f32⟩
  | .hbm, ⟨4, _⟩ => ⟨S64x32, .f32⟩
  | .hbm, ⟨5, _⟩ => ⟨S32, .f32⟩
  | .hbm, ⟨6, _⟩ => ⟨S32x2, .f32⟩
  | .hbm, ⟨7, _⟩ => ⟨S2, .f32⟩
  | .hbm, ⟨8, _⟩ => ⟨S_, .f32⟩
  | .hbm, ⟨9, _⟩ => ⟨S131072x116, .f32⟩
  | .hbm, ⟨10, _⟩ => ⟨S_, .f32⟩
  | .hbm, ⟨11, _⟩ => ⟨S131072x116, .f32⟩
  | .hbm, ⟨12, _⟩ => ⟨S131072x116, .f32⟩
  | .hbm, ⟨13, _⟩ => ⟨S_, .f32⟩
  | .hbm, ⟨14, _⟩ => ⟨S131072x116, .f32⟩
  | .hbm, ⟨15, _⟩ => ⟨S_, .f32⟩
  | .hbm, ⟨16, _⟩ => ⟨S131072x116, .f32⟩
  | .hbm, ⟨17, _⟩ => ⟨S131072x116, .f32⟩
  | .hbm, ⟨18, _⟩ => ⟨S131072x116, .f32⟩
  | .hbm, ⟨19, _⟩ => ⟨S131072x116, .f32⟩
  | .hbm, ⟨20, _⟩ => ⟨S131072x116, .f32⟩
  | .hbm, ⟨21, _⟩ => ⟨S_, .f32⟩
  | .hbm, ⟨22, _⟩ => ⟨S131072x116, .f32⟩
  | .hbm, ⟨23, _⟩ => ⟨S131072x116, .f32⟩
  | .hbm, ⟨24, _⟩ => ⟨S_, .f32⟩
  | .hbm, ⟨25, _⟩ => ⟨S131072x116, .f32⟩
  | .hbm, ⟨26, _⟩ => ⟨S131072x116, .f32⟩
  | .hbm, ⟨27, _⟩ => ⟨S131072x1x116, .f32⟩
  | .hbm, ⟨28, _⟩ => ⟨S131072x2x116, .f32⟩
  | .hbm, ⟨29, _⟩ => ⟨S131072x2x116, .f32⟩
  | .hbm, ⟨30, _⟩ => ⟨S131072x2x116, .f32⟩
  | .hbm, ⟨31, _⟩ => ⟨S131072x2x116, .f32⟩
  | .hbm, ⟨32, _⟩ => ⟨S131072x4x116, .f32⟩
  | .hbm, ⟨33, _⟩ => ⟨S131072x464, .f32⟩
  | .hbm, ⟨34, _⟩ => ⟨S131072x64, .f32⟩
  | .hbm, ⟨35, _⟩ => ⟨S1x64, .f32⟩
  | .hbm, ⟨36, _⟩ => ⟨S131072x64, .f32⟩
  | .hbm, ⟨37, _⟩ => ⟨S131072x64, .f32⟩
  | .hbm, ⟨38, _⟩ => ⟨S_, .f32⟩
  | .hbm, ⟨39, _⟩ => ⟨S131072x64, .f32⟩
  | .hbm, ⟨40, _⟩ => ⟨S131072x64, .f32⟩
  | .hbm, ⟨41, _⟩ => ⟨S131072x32, .f32⟩
  | .hbm, ⟨42, _⟩ => ⟨S1x32, .f32⟩
  | .hbm, ⟨43, _⟩ => ⟨S131072x32, .f32⟩
  | .hbm, ⟨44, _⟩ => ⟨S131072x32, .f32⟩
  | .hbm, ⟨45, _⟩ => ⟨S_, .f32⟩
  | .hbm, ⟨46, _⟩ => ⟨S131072x32, .f32⟩
  | .hbm, ⟨47, _⟩ => ⟨S131072x32, .f32⟩
  | .hbm, ⟨48, _⟩ => ⟨S131072x2, .f32⟩
  | .hbm, ⟨49, _⟩ => ⟨S1x2, .f32⟩
  | .hbm, ⟨50, _⟩ => ⟨S131072x2, .f32⟩
  | .hbm, ⟨51, _⟩ => ⟨S131072x2, .f32⟩
  | .hbm, ⟨52, _⟩ => ⟨S_, .f32⟩
  | .hbm, ⟨53, _⟩ => ⟨S131072, .f32⟩
  | .hbm, ⟨54, _⟩ => ⟨S_, .f32⟩
  | .hbm, ⟨55, _⟩ => ⟨S131072, .f32⟩
  | .hbm, ⟨56, _⟩ => ⟨S131072, .f32⟩
  | .hbm, ⟨57, _⟩ => ⟨S131072x1, .f32⟩
  | .hbm, ⟨58, _⟩ => ⟨S131072x2, .f32⟩
  | .hbm, ⟨59, _⟩ => ⟨S131072x2, .f32⟩
  | .hbm, ⟨60, _⟩ => ⟨S131072x2, .f32⟩
  | .hbm, ⟨61, _⟩ => ⟨S_, .f32⟩
  | .hbm, ⟨62, _⟩ => ⟨S131072, .f32⟩
  | .hbm, ⟨63, _⟩ => ⟨S131072x1, .f32⟩
  | .hbm, ⟨64, _⟩ => ⟨S131072x2, .f32⟩
  | .hbm, ⟨65, _⟩ => ⟨S131072x2, .f32⟩
  | _, _ => ⟨S131072x2x116, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_cst : Ref sig .tc := ⟨.hbm, 8, rfl⟩
abbrev main_v0 : Ref sig .tc := ⟨.hbm, 9, rfl⟩
abbrev main_cst_0 : Ref sig .tc := ⟨.hbm, 10, rfl⟩
abbrev main_v1 : Ref sig .tc := ⟨.hbm, 11, rfl⟩
abbrev main_v2 : Ref sig .tc := ⟨.hbm, 12, rfl⟩
abbrev main_cst_1 : Ref sig .tc := ⟨.hbm, 13, rfl⟩
abbrev main_v3 : Ref sig .tc := ⟨.hbm, 14, rfl⟩
abbrev main_cst_2 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_cst_3 : Ref sig .tc := ⟨.hbm, 21, rfl⟩
abbrev main_v9 : Ref sig .tc := ⟨.hbm, 22, rfl⟩
abbrev main_v10 : Ref sig .tc := ⟨.hbm, 23, rfl⟩
abbrev main_cst_4 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_call0_cst : Ref sig .tc := ⟨.hbm, 38, rfl⟩
abbrev main_call0_v0 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_call1_cst : Ref sig .tc := ⟨.hbm, 45, rfl⟩
abbrev main_call1_v0 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_cst_5 : Ref sig .tc := ⟨.hbm, 52, rfl⟩
abbrev main_v34 : Ref sig .tc := ⟨.hbm, 53, rfl⟩
abbrev main_cst_6 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_7 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩

abbrev nD : Nat := 1
abbrev τ : Topo := Topo.v7x

variable {F : FTy → Type} [FloatOps F]

class Facts₀ : Prop where
  reducesTo_S131072x2x116_S131072x116_d1 : S131072x2x116.ReducesTo [1] S131072x116
  h_S_ : 0 < S_.numel
  bcast_S_S131072x116 : S_.BroadcastsInDim S131072x116 (![] : Fin 0 → Fin S131072x116.rank)
  bcast_S131072x116_S131072x1x116_0_2 : S131072x116.BroadcastsInDim S131072x1x116 (![0, 2] : Fin 2 → Fin S131072x1x116.rank)
  bcast_S131072x1x116_S131072x2x116_0_1_2 : S131072x1x116.BroadcastsInDim S131072x2x116 (![0, 1, 2] : Fin 3 → Fin S131072x2x116.rank)
  concatenates_S131072x2x116_S131072x2x116_S131072x4x116_d1 : Shape.Concatenates [S131072x2x116, S131072x2x116] S131072x4x116 1
  shapeCasts_S131072x4x116_S131072x464 : S131072x4x116.ShapeCasts S131072x464
  bcast_S64_S1x64_1 : S64.BroadcastsInDim S1x64 (![1] : Fin 1 → Fin S1x64.rank)
  bcast_S1x64_S131072x64_0_1 : S1x64.BroadcastsInDim S131072x64 (![0, 1] : Fin 2 → Fin S131072x64.rank)
  bcast_S_S131072x64 : S_.BroadcastsInDim S131072x64 (![] : Fin 0 → Fin S131072x64.rank)
  bcast_S32_S1x32_1 : S32.BroadcastsInDim S1x32 (![1] : Fin 1 → Fin S1x32.rank)
  bcast_S1x32_S131072x32_0_1 : S1x32.BroadcastsInDim S131072x32 (![0, 1] : Fin 2 → Fin S131072x32.rank)
  bcast_S_S131072x32 : S_.BroadcastsInDim S131072x32 (![] : Fin 0 → Fin S131072x32.rank)
  bcast_S2_S1x2_1 : S2.BroadcastsInDim S1x2 (![1] : Fin 1 → Fin S1x2.rank)
  bcast_S1x2_S131072x2_0_1 : S1x2.BroadcastsInDim S131072x2 (![0, 1] : Fin 2 → Fin S131072x2.rank)
  reducesTo_S131072x2_S131072_d1 : S131072x2.ReducesTo [1] S131072
  bcast_S_S131072 : S_.BroadcastsInDim S131072 (![] : Fin 0 → Fin S131072.rank)
  bcast_S131072_S131072x1_0 : S131072.BroadcastsInDim S131072x1 (![0] : Fin 1 → Fin S131072x1.rank)
  bcast_S131072x1_S131072x2_0_1 : S131072x1.BroadcastsInDim S131072x2 (![0, 1] : Fin 2 → Fin S131072x2.rank)
  dot_S131072x464_S464x64_S131072x64_1_0_0_1_n_n_wf : DotDims.WF S131072x464 S464x64 S131072x64 [1] [0] [0] [1] [] []
  dot_S131072x64_S64x32_S131072x32_1_0_0_1_n_n_wf : DotDims.WF S131072x64 S64x32 S131072x32 [1] [0] [0] [1] [] []
  dot_S131072x32_S32x2_S131072x2_1_0_0_1_n_n_wf : DotDims.WF S131072x32 S32x2 S131072x2 [1] [0] [0] [1] [] []

variable [Facts₀]

def dot_S131072x464_S464x64_S131072x64_1_0_0_1_n_n : DotDims S131072x464 S464x64 S131072x64 where
  lhsContracting := [1]
  rhsContracting := [0]
  lhsNonContracting := [0]
  rhsNonContracting := [1]
  lhsBatch := []
  rhsBatch := []
  wf := dot_S131072x464_S464x64_S131072x64_1_0_0_1_n_n_wf
def dot_S131072x64_S64x32_S131072x32_1_0_0_1_n_n : DotDims S131072x64 S64x32 S131072x32 where
  lhsContracting := [1]
  rhsContracting := [0]
  lhsNonContracting := [0]
  rhsNonContracting := [1]
  lhsBatch := []
  rhsBatch := []
  wf := dot_S131072x64_S64x32_S131072x32_1_0_0_1_n_n_wf
def dot_S131072x32_S32x2_S131072x2_1_0_0_1_n_n : DotDims S131072x32 S32x2 S131072x2 where
  lhsContracting := [1]
  rhsContracting := [0]
  lhsNonContracting := [0]
  rhsNonContracting := [1]
  lhsBatch := []
  rhsBatch := []
  wf := dot_S131072x32_S32x2_S131072x2_1_0_0_1_n_n_wf

class Facts : Prop extends Facts₀ where

variable [Facts]
-- ==== Proof.RowSpec.lean ====
/-
  The mathematics of one batch row, with no program in sight.

  A row of the network's input is two flattened channel pairs `f, s : Fin 232 → EReal` (entry `c * 116 + j` is lane `j`
  of channel `c`). Lane `j` is gated by the logistic of the product of the two channel means,
  `σ((½ (f₀ⱼ + f₁ⱼ)) · (½ (s₀ⱼ + s₁ⱼ)))`, the same gate on both channels. The gated row is fed through three affine layers
  (464 → 64 → 32 → 2, the first one written as the sum of its `f` half and its `s` half), the first two followed by
  `max · 0`, and the two logits through a softmax: `exp (lₒ - m) / ∑ₖ exp (lₖ - m)` with `m` the larger logit.
  Everything is stated on the extended reals with exact operations; the three float words that occur (½, 0, -∞) are
  kept as the words both programs spell.
-/
import Idealize.ShloMosaic.PureOps.Ideal.Laws

noncomputable section

namespace Cert.GatedMlp

open Idealize.ShloMosaic

/-- Lane `j` of the first channel inside a flattened row of 2 · 116 entries. -/
def ch0 (j : Fin 116) : Fin 232 := ⟨j.val, by have := j.isLt; omega⟩
/-- Lane `j` of the second channel inside a flattened row. -/
def ch1 (j : Fin 116) : Fin 232 := ⟨116 + j.val, by have := j.isLt; omega⟩

/-- The gate of lane `j`: the logistic of the product of the two inputs' channel means. -/
def gate (f s : Fin 232 → EReal) (j : Fin 116) : EReal :=
  Ideal.logistic ((Ideal.ofBits .f32 0x3F000000#32 * (f (ch0 j) + f (ch1 j)))
    * (Ideal.ofBits .f32 0x3F000000#32 * (s (ch0 j) + s (ch1 j))))

/-- The gate laid over a flattened row: entry `k` is gated by its lane, `k` or `k - 116`. -/
def gate2 (f s : Fin 232 → EReal) (k : Fin 232) : EReal :=
  if h : k.val < 116 then gate f s ⟨k.val, h⟩ else gate f s ⟨k.val - 116, by have := k.isLt; omega⟩

/-- The first layer before its rectifier: the gated `f` half against the first 232 weight rows plus the gated `s` half
    against the last 232, plus the bias. -/
def pre1 (f s : Fin 232 → EReal) (w1f w1s : Fin 232 → Fin 64 → EReal) (b1 : Fin 64 → EReal) (n : Fin 64) : EReal :=
  (∑ k : Fin 232, (f k * gate2 f s k) * w1f k n + ∑ k : Fin 232, (s k * gate2 f s k) * w1s k n) + b1 n

/-- The rectifier, against the float word of zero. -/
def relu (x : EReal) : EReal := max x (Ideal.ofBits .f32 0x00000000#32)

/-- An affine layer. -/
def layer {K N : ℕ} (h : Fin K → EReal) (w : Fin K → Fin N → EReal) (b : Fin N → EReal) (n : Fin N) : EReal :=
  ∑ k : Fin K, h k * w k n + b n

/-- The larger of the two logits, taken from the float word of -∞ the way both programs take it. -/
def top2 (l : Fin 2 → EReal) : EReal :=
  max (Ideal.ofBits .f32 0xFF800000#32) ((Finset.univ : Finset (Fin 2)).fold max (Ideal.ofBits .f32 0xFF800000#32) l)

/-- The softmax of two logits. -/
def softmax2 (l : Fin 2 → EReal) (o : Fin 2) : EReal :=
  Ideal.div (Ideal.exp (l o - top2 l)) (∑ k : Fin 2, Ideal.exp (l k - top2 l))

/-- The network's two outputs for one row. -/
def rowOut (f s : Fin 232 → EReal) (w1f w1s : Fin 232 → Fin 64 → EReal) (b1 : Fin 64 → EReal)
    (w2 : Fin 64 → Fin 32 → EReal) (b2 : Fin 32 → EReal) (w3 : Fin 32 → Fin 2 → EReal) (b3 : Fin 2 → EReal) : Fin 2 → EReal :=
  softmax2 (layer (fun p => relu (layer (fun n => relu (pre1 f s w1f w1s b1 n)) w2 b2 p)) w3 b3)

end Cert.GatedMlp

end
-- ==== Proof.LibRowOps.lean ====
/-
  Row-wise operations of a two-axis vector, read at an index (program-independent; imports only the library).

  A reduction along the rows of an `[a, b]` vector that keeps the reduced axis as a unit axis passes through three
  operations: the reduction itself into `[a]`, a shape cast of that into the column `[a, 1]`, and a broadcast of the
  column back to `[a, b]`. Read at `(i, j)`, the cast column at `(i, 0)` is entry `i` of the reduced vector, and the
  broadcast column at `(i, j)` is the column's entry `(i, 0)`: the value depends on the row alone. At the ideal values
  the reduction at row `i` is the sum over `k` of the entries `(i, k)`, or the fold of `max` over them from the
  accumulator's value, in any order.
-/
import Idealize.ShloMosaic.Lib.ValueIdx
import Idealize.ShloMosaic.Lib.Pipeline.Value
import Idealize.ShloMosaic.PureOps.Ideal.Laws

noncomputable section

namespace Cert.RowOps

open Idealize.ShloMosaic Idealize.ShloMosaic.ValueIdx

variable {α : Type}

/-- An `[a]` vector cast to the column `[a, 1]` reads, at `(i, z)`, the operand's entry `i`: both sit at row-major
    position `i`. -/
theorem shapeCast_a_a1_apply {a : ℕ} (x : (⟨1, ![a]⟩ : Shape).Idx → α)
    (h : (⟨1, ![a]⟩ : Shape).ShapeCasts ⟨2, ![a, 1]⟩) (i : Fin a) (z : Fin 1) :
    shapeCast ⟨2, ![a, 1]⟩ x h (ix2 i z) = x (ix1 i) :=
  shapeCast_apply x h _ _ (by
    have hz : z.val = 0 := by omega
    rw [Shape.rowMajor_val_one, Shape.rowMajor_val_two]
    show i.val = i.val * 1 + z.val
    rw [hz, Nat.mul_one, Nat.add_zero])

/-- A column `[a, 1]` broadcast to `[a, b]` reads, at `(i, j)`, the column's entry `(i, 0)`: the row is kept and
    the unit axis is read at its only coordinate. -/
theorem broadcastTo_a1_ab_apply {a b : ℕ} (x : (⟨2, ![a, 1]⟩ : Shape).Idx → α)
    (h : (⟨2, ![a, 1]⟩ : Shape).Broadcasts ⟨2, ![a, b]⟩) (i : Fin a) (j : Fin b) :
    broadcastTo ⟨2, ![a, b]⟩ x h (ix2 i j) = x (ix2 i (0 : Fin 1)) :=
  broadcastTo_apply x h _ _ (fun c => match c with
    | ⟨0, _⟩ => by
      show i.val = if a = 1 then 0 else i.val
      by_cases ha : a = 1
      · rw [if_pos ha]; have := i.isLt; omega
      · rw [if_neg ha]
    | ⟨1, _⟩ => by
      show 0 = if (1 : Nat) = 1 then 0 else j.val
      rw [if_pos rfl])

/-- The index over row `i` with coordinate `k` put back on the reduced axis is `(i, k)`. -/
theorem lift_row {a b : ℕ} (h : (⟨2, ![a, b]⟩ : Shape).Reduces [1] ⟨1, ![a]⟩) (i : Fin a)
    (k : Fin ((⟨2, ![a, b]⟩ : Shape).size 1)) : h.lift (ix1 i) k = ix2 i (⟨k.val, k.isLt⟩ : Fin b) := by
  funext c; apply Fin.ext
  fin_cases c <;> rfl

/-- At the ideal values a sum along the rows of an `[a, b]` vector is, at row `i`, the sum of that row's entries. -/
theorem multiReduction_add_row {a b : ℕ} {φ : FTy} (X : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (i : Fin a) :
    multiReduction .add [1] ⟨1, ![a]⟩ X acc h hφ hacc (ix1 i) = ∑ k : Fin b, X (ix2 i k) := by
  refine (Ideal.multiReduction_add_single X acc h hφ hacc (ix1 i)).trans ?_
  exact Finset.sum_congr rfl fun k _ => congrArg X (lift_row h i k)

/-- At the ideal values a maximum along the rows of an `[a, b]` vector is, at row `i`, the fold of `max` over that
    row's entries from the accumulator's value, in any order. -/
theorem multiReduction_maximumf_row {a b : ℕ} {φ : FTy} (X : FVec Ideal ⟨2, ![a, b]⟩ φ) (acc : BitVec φ.bits)
    (h : (⟨2, ![a, b]⟩ : Shape).Reduces [1] ⟨1, ![a]⟩) (hφ : FKind.Formats φ)
    (hacc : acc = FKind.maximumf.neutral φ hφ) (i : Fin a) :
    multiReduction .maximumf [1] ⟨1, ![a]⟩ X acc h hφ hacc (ix1 i)
      = (Finset.univ : Finset (Fin b)).fold max (Ideal.ofBits φ acc) (fun k => X (ix2 i k)) := by
  refine (Ideal.multiReduction_maximumf_single X acc h hφ hacc (ix1 i)).trans ?_
  have hf : (X ∘ h.lift (ix1 i)) = fun k : Fin b => X (ix2 i k) := funext fun k => congrArg X (lift_row h i k)
  rw [hf]
  rfl

end Cert.RowOps

end
-- ==== Proof.KernelRow.lean ====
/-
  What the kernel's body computes for one row of its block, at the ideal values.

  The body's two payloads are read at an output index `(r, o)`: every pointwise operation passes the index to its
  operands; a matrix product into a zero accumulator is the sum over the contracted coordinate of the products; a slice
  of the first or the last 116 columns reads column `j` or `116 + j`; the gate joined to itself along the columns
  reads lane `k` or `k - 116`; a bias cast to one row and broadcast over the rows reads its own entry; the row maximum
  and the row sum, cast to a column and broadcast back, depend on the row alone. What is left is the row function
  `rowOut` of the block's row `r` and of the weights.
-/
import proofs.«101484_j73023033966684_2_alg».proof.Proof.Gen.KernelIdeal.Skeleton
import proofs.«101484_j73023033966684_2_alg».proof.Proof.RowSpec
import proofs.«101484_j73023033966684_2_alg».proof.Proof.LibRowOps
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.RowValue

open Cert.KernelIdeal Cert.KernelIdeal.Gen Idealize.ShloMosaic Idealize.ShloMosaic.ValueIdx Cert.GatedMlp

/-! ## Operations read at an index -/

theorem exp_apply {s : Shape} {φ : FTy} (a : FVec Ideal s φ) (i : s.Idx) : exp a i = Ideal.exp (a i) := rfl
theorem logistic_apply {s : Shape} {φ : FTy} (a : FVec Ideal s φ) (i : s.Idx) : logistic a i = Ideal.logistic (a i) := rfl
theorem scalar_ofBits (φ : FTy) (b : BitVec φ.bits) : Scalar.ofBits (F := Ideal) φ b = Ideal.ofBits φ b := rfl

/-- A product of an `[a, k]` by a `[k, b]` matrix into the zero accumulator, read at `(r, o)`: the sum over the
    contracted coordinate `p` of the entries `(r, p)` times `(p, o)`. The four hypotheses say which coordinates the
    dimension numbers hand to each operand. -/
theorem matmul_zero_ix2 {a k b : ℕ} {φ₁ φ₂ : FTy} (D : DotDims ⟨2, ![a, k]⟩ ⟨2, ![k, b]⟩ ⟨2, ![a, b]⟩)
    (hr : D.contr.rank = 1) (hs : D.contr.size ⟨0, by omega⟩ = k)
    (hl0 : ∀ i q, (D.lhsIdx i q 0).val = (i 0).val) (hl1 : ∀ i q, (D.lhsIdx i q 1).val = (q ⟨0, by omega⟩).val)
    (hr0 : ∀ i q, (D.rhsIdx i q 0).val = (q ⟨0, by omega⟩).val) (hr1 : ∀ i q, (D.rhsIdx i q 1).val = (i 1).val)
    (A : FVec Ideal ⟨2, ![a, k]⟩ φ₁) (B : FVec Ideal ⟨2, ![k, b]⟩ φ₂) (r : Fin a) (o : Fin b) :
    FloatOps.matmul D none A B (constant (F := Ideal) ⟨2, ![a, b]⟩ .f32 0x00000000#32) (ix2 r o)
      = ∑ p : Fin k, A (ix2 r p) * B (ix2 p o) := by
  rw [Ideal.matmul_constant_zero_apply, ← Equiv.sum_comp (contrEquiv1 D k hr hs).symm]
  refine Finset.sum_congr rfl fun p _ => ?_
  have hk := contrEquiv1_symm_val D k hr hs p
  have el : D.lhsIdx (ix2 r o) ((contrEquiv1 D k hr hs).symm p) = ix2 r p := funext fun c => Fin.ext (by
    match c with
    | ⟨0, _⟩ => exact hl0 _ _
    | ⟨1, _⟩ => exact (hl1 _ _).trans hk)
  have er : D.rhsIdx (ix2 r o) ((contrEquiv1 D k hr hs).symm p) = ix2 p o := funext fun c => Fin.ext (by
    match c with
    | ⟨0, _⟩ => exact (hr0 _ _).trans hk
    | ⟨1, _⟩ => exact hr1 _ _)
  rw [el, er]

/-- The first layer's product: a block's `[2048, 232]` rows against a `[232, 64]` weight half. -/
theorem mm1_apply {φ₁ φ₂ : FTy} (A : FVec Ideal S2048x232 φ₁) (B : FVec Ideal S232x64 φ₂) (r : Fin 2048) (n : Fin 64) :
    matmul dot_S2048x232_S232x64_S2048x64_1_0_0_1_n_n none A B (constant (F := Ideal) S2048x64 .f32 0x00000000#32) (ix2 r n)
      = ∑ k : Fin 232, A (ix2 r k) * B (ix2 k n) :=
  matmul_zero_ix2 dot_S2048x232_S232x64_S2048x64_1_0_0_1_n_n rfl rfl
    (fun i q => by
      unfold DotDims.lhsIdx
      rw [dif_neg (show ¬(0 : Fin S2048x232.rank) ∈ dot_S2048x232_S232x64_S2048x64_1_0_0_1_n_n.lhsBatch by decide), dif_pos (show (0 : Fin S2048x232.rank) ∈ dot_S2048x232_S232x64_S2048x64_1_0_0_1_n_n.lhsNonContracting by decide)]
      rfl)
    (fun i q => dot_S2048x232_S232x64_S2048x64_1_0_0_1_n_n.lhsIdx_val_of_single rfl i q)
    (fun i q => dot_S2048x232_S232x64_S2048x64_1_0_0_1_n_n.rhsIdx_val_of_single rfl i q)
    (fun i q => by
      unfold DotDims.rhsIdx
      rw [dif_neg (show ¬(1 : Fin S232x64.rank) ∈ dot_S2048x232_S232x64_S2048x64_1_0_0_1_n_n.rhsBatch by decide), dif_pos (show (1 : Fin S232x64.rank) ∈ dot_S2048x232_S232x64_S2048x64_1_0_0_1_n_n.rhsNonContracting by decide)]
      rfl)
    A B r n

/-- The second layer's product. -/
theorem mm2_apply {φ₁ φ₂ : FTy} (A : FVec Ideal S2048x64 φ₁) (B : FVec Ideal S64x32 φ₂) (r : Fin 2048) (p : Fin 32) :
    matmul dot_S2048x64_S64x32_S2048x32_1_0_0_1_n_n none A B (constant (F := Ideal) S2048x32 .f32 0x00000000#32) (ix2 r p)
      = ∑ n : Fin 64, A (ix2 r n) * B (ix2 n p) :=
  matmul_zero_ix2 dot_S2048x64_S64x32_S2048x32_1_0_0_1_n_n rfl rfl
    (fun i q => by
      unfold DotDims.lhsIdx
      rw [dif_neg (show ¬(0 : Fin S2048x64.rank) ∈ dot_S2048x64_S64x32_S2048x32_1_0_0_1_n_n.lhsBatch by decide), dif_pos (show (0 : Fin S2048x64.rank) ∈ dot_S2048x64_S64x32_S2048x32_1_0_0_1_n_n.lhsNonContracting by decide)]
      rfl)
    (fun i q => dot_S2048x64_S64x32_S2048x32_1_0_0_1_n_n.lhsIdx_val_of_single rfl i q)
    (fun i q => dot_S2048x64_S64x32_S2048x32_1_0_0_1_n_n.rhsIdx_val_of_single rfl i q)
    (fun i q => by
      unfold DotDims.rhsIdx
      rw [dif_neg (show ¬(1 : Fin S64x32.rank) ∈ dot_S2048x64_S64x32_S2048x32_1_0_0_1_n_n.rhsBatch by decide), dif_pos (show (1 : Fin S64x32.rank) ∈ dot_S2048x64_S64x32_S2048x32_1_0_0_1_n_n.rhsNonContracting by decide)]
      rfl)
    A B r p

/-- The third layer's product. -/
theorem mm3_apply {φ₁ φ₂ : FTy} (A : FVec Ideal S2048x32 φ₁) (B : FVec Ideal S32x2 φ₂) (r : Fin 2048) (o : Fin 2) :
    matmul dot_S2048x32_S32x2_S2048x2_1_0_0_1_n_n none A B (constant (F := Ideal) S2048x2 .f32 0x00000000#32) (ix2 r o)
      = ∑ p : Fin 32, A (ix2 r p) * B (ix2 p o) :=
  matmul_zero_ix2 dot_S2048x32_S32x2_S2048x2_1_0_0_1_n_n rfl rfl
    (fun i q => by
      unfold DotDims.lhsIdx
      rw [dif_neg (show ¬(0 : Fin S2048x32.rank) ∈ dot_S2048x32_S32x2_S2048x2_1_0_0_1_n_n.lhsBatch by decide), dif_pos (show (0 : Fin S2048x32.rank) ∈ dot_S2048x32_S32x2_S2048x2_1_0_0_1_n_n.lhsNonContracting by decide)]
      rfl)
    (fun i q => dot_S2048x32_S32x2_S2048x2_1_0_0_1_n_n.lhsIdx_val_of_single rfl i q)
    (fun i q => dot_S2048x32_S32x2_S2048x2_1_0_0_1_n_n.rhsIdx_val_of_single rfl i q)
    (fun i q => by
      unfold DotDims.rhsIdx
      rw [dif_neg (show ¬(1 : Fin S32x2.rank) ∈ dot_S2048x32_S32x2_S2048x2_1_0_0_1_n_n.rhsBatch by decide), dif_pos (show (1 : Fin S32x2.rank) ∈ dot_S2048x32_S32x2_S2048x2_1_0_0_1_n_n.rhsNonContracting by decide)]
      rfl)
    A B r o

/-- The first 116 columns of a `[2048, 232]` vector: column `j` is the source's column `j`. -/
theorem slice_lo_apply {α : Type} (X : S2048x232.Idx → α) (h : S2048x232.Slices ![0, 0] S2048x116) (r : Fin 2048) (j : Fin 116) :
    extractStridedSlice S2048x116 ![0, 0] X h (ix2 r j) = X (ix2 r (ch0 j)) :=
  slice2_axis1_apply 0 X h r j (ch0 j) (Nat.zero_add _).symm

/-- The last 116 columns: column `j` is the source's column `116 + j`. -/
theorem slice_hi_apply {α : Type} (X : S2048x232.Idx → α) (h : S2048x232.Slices ![0, 116] S2048x116) (r : Fin 2048) (j : Fin 116) :
    extractStridedSlice S2048x116 ![0, 116] X h (ix2 r j) = X (ix2 r (ch1 j)) :=
  slice2_axis1_apply 116 X h r j (ch1 j) rfl

/-- A `[2048, 116]` vector joined to itself along the columns: column `k` reads lane `k` below 116, lane `k - 116` from there on. -/
theorem concat_self_apply {α : Type} (v : S2048x116.Idx → α) (h : Shape.Concatenates [S2048x116, S2048x116] S2048x232 1)
    (r : Fin 2048) (k : Fin 232) :
    concatenate S2048x232 1 [⟨S2048x116, v⟩, ⟨S2048x116, v⟩] h (ix2 r k)
      = if hk : k.val < 116 then v (ix2 r ⟨k.val, hk⟩) else v (ix2 r ⟨k.val - 116, by have := k.isLt; omega⟩) := by
  split
  · next hk =>
    exact concatenate_pair_apply_left 1 v v h (ix2 r k) rfl (ix2 r ⟨k.val, hk⟩) (fun b => by
      match b with
      | ⟨0, _⟩ => rfl
      | ⟨1, _⟩ => rfl)
  · next hk =>
    exact concatenate_pair_apply_right 1 v v h (ix2 r k) rfl rfl (ix2 r ⟨k.val - 116, by have := k.isLt; omega⟩)
      (fun b hb => by
        match b with
        | ⟨0, _⟩ => rfl
        | ⟨1, _⟩ => exact absurd rfl hb)
      (by show (k.val - 116) + 116 = k.val; omega)

/-- A bias `[n]` cast to one row and broadcast over `a` rows reads, at `(r, d)`, its entry `d`. -/
theorem rowBias_apply {α : Type} {a n : ℕ} (v : (⟨1, ![n]⟩ : Shape).Idx → α) (h : (⟨1, ![n]⟩ : Shape).ShapeCasts ⟨2, ![1, n]⟩)
    (h' : (⟨2, ![1, n]⟩ : Shape).Broadcasts ⟨2, ![a, n]⟩) (r : Fin a) (d : Fin n) :
    broadcastTo ⟨2, ![a, n]⟩ (shapeCast ⟨2, ![1, n]⟩ v h) h' (ix2 r d) = v (ix1 d) := by
  rw [broadcastTo_1b_ab_apply, shapeCast_a_1a_apply]

/-- The row sum of a `[2048, 2]` vector at the ideal values, with the accumulator's proof spelt as the body spells it. -/
theorem rowSum_apply (X : FVec Ideal S2048x2 .f32) (hφ : FKind.Formats .f32) (hacc : (0x00000000#32 : BitVec 32) = 0x00000000#32)
    (r : Fin 2048) :
    multiReduction .add [1] S2048 X 0x00000000#32 reduces_S2048x2_S2048 hφ hacc (ix1 r) = ∑ k : Fin 2, X (ix2 r k) :=
  Cert.RowOps.multiReduction_add_row X 0x00000000#32 reduces_S2048x2_S2048 hφ hacc r

/-- The row maximum of a `[2048, 2]` vector at the ideal values: the fold of `max` over the row from the word of -∞. -/
theorem rowMax_apply (X : FVec Ideal S2048x2 .f32) (hφ : FKind.Formats .f32) (hacc : (0xFF800000#32 : BitVec 32) = 0xFF800000#32)
    (r : Fin 2048) :
    multiReduction .maximumf [1] S2048 X 0xFF800000#32 reduces_S2048x2_S2048 hφ hacc (ix1 r)
      = (Finset.univ : Finset (Fin 2)).fold max (Ideal.ofBits .f32 0xFF800000#32) (fun k => X (ix2 r k)) :=
  Cert.RowOps.multiReduction_maximumf_row X 0xFF800000#32 reduces_S2048x2_S2048 hφ hacc r

/-! ## The two payloads at an index -/

/-- The hidden activations' product with the second weight matrix, at `(r, p)`. -/
theorem pay2_apply (x0 x1 : Vec Ideal S2048x232 .f32) (x2 x3 : Vec Ideal S232x64 .f32) (x4 : Vec Ideal S64 .f32)
    (x5 : Vec Ideal S64x32 .f32) (r : Fin 2048) (p : Fin 32) :
    k0_pay2 x0 x1 x2 x3 x4 x5 (ix2 r p)
      = ∑ n : Fin 64, relu (pre1 (fun k => x0 (ix2 r k)) (fun k => x1 (ix2 r k)) (fun k n => x2 (ix2 k n)) (fun k n => x3 (ix2 k n))
          (fun n => x4 (ix1 n)) n) * x5 (ix2 n p) := by
  unfold k0_pay2
  simp only [shapeCast_self, mm1_apply, mm2_apply, truncf_apply, maximumf_apply, addf_apply, mulf_apply, broadcast_apply,
    rowBias_apply, concat_self_apply, logistic_apply, slice_lo_apply, slice_hi_apply, scalar_ofBits]
  rfl

/-- The softmax of the logits, at `(r, o)`, for any second hidden layer's pre-activation `v39`. -/
theorem pay1_apply (v39 : FVec Ideal S2048x32 .f32) (x6 : Vec Ideal S32 .f32) (x7 : Vec Ideal S32x2 .f32) (x8 : Vec Ideal S2 .f32)
    (r : Fin 2048) (o : Fin 2) :
    k0_pay1 v39 x6 x7 x8 (ix2 r o)
      = softmax2 (layer (fun p => relu (v39 (ix2 r p) + x6 (ix1 p))) (fun p o => x7 (ix2 p o)) (fun o => x8 (ix1 o))) o := by
  unfold k0_pay1
  simp only [divf_apply, exp_apply, subf_apply, Cert.RowOps.broadcastTo_a1_ab_apply, Cert.RowOps.shapeCast_a_a1_apply,
    maximumf_apply, broadcast_apply, addf_apply, mm3_apply, truncf_apply, rowBias_apply, scalar_ofBits]
  rw [rowSum_apply]
  simp only [divf_apply, exp_apply, subf_apply, Cert.RowOps.broadcastTo_a1_ab_apply, Cert.RowOps.shapeCast_a_a1_apply,
    maximumf_apply, broadcast_apply, addf_apply, mm3_apply, truncf_apply, rowBias_apply, scalar_ofBits]
  rw [rowMax_apply]
  simp only [divf_apply, exp_apply, subf_apply, Cert.RowOps.broadcastTo_a1_ab_apply, Cert.RowOps.shapeCast_a_a1_apply,
    maximumf_apply, broadcast_apply, addf_apply, mm3_apply, truncf_apply, rowBias_apply, scalar_ofBits]
  rfl

/-- The body's store at `(r, o)` is the row function of row `r` of the two input blocks and of the weight blocks. -/
theorem pay_apply (x0 x1 : Vec Ideal S2048x232 .f32) (x2 x3 : Vec Ideal S232x64 .f32) (x4 : Vec Ideal S64 .f32)
    (x5 : Vec Ideal S64x32 .f32) (x6 : Vec Ideal S32 .f32) (x7 : Vec Ideal S32x2 .f32) (x8 : Vec Ideal S2 .f32)
    (r : Fin 2048) (o : Fin 2) :
    k0_pay1 (k0_pay2 x0 x1 x2 x3 x4 x5) x6 x7 x8 (ix2 r o)
      = rowOut (fun k => x0 (ix2 r k)) (fun k => x1 (ix2 r k)) (fun k n => x2 (ix2 k n)) (fun k n => x3 (ix2 k n))
          (fun n => x4 (ix1 n)) (fun n p => x5 (ix2 n p)) (fun p => x6 (ix1 p)) (fun p o => x7 (ix2 p o)) (fun o => x8 (ix1 o)) o := by
  rw [pay1_apply]
  simp only [pay2_apply]
  rfl

end Cert.KernelIdeal.RowValue

end
-- ==== Proof.ArraySpec.lean ====
/-
  The network over the whole batch: the output array as one function of the eight argument arrays.

  Row `b` of an input `[131072, 2, 116]` is read flattened, entry `k` of the row being channel `k / 116`, lane `k % 116`;
  the first weight matrix `[464, 64]` is read as its first 232 rows and its last 232 rows; entry `(b, o)` of the result
  is the row function of row `b`.
-/
import proofs.«101484_j73023033966684_2_alg».proof.Proof.RowSpec
import Idealize.ShloMosaic.Lib.ValueIdx

noncomputable section

namespace Cert.GatedMlp

open Idealize.ShloMosaic Idealize.ShloMosaic.ValueIdx

/-- Row `b` of a `[131072, 2, 116]` array flattened to 232 entries: entry `k` is channel `k / 116`, lane `k % 116`. -/
def frow (X : (⟨3, ![131072, 2, 116]⟩ : Shape).Idx → EReal) (b : Fin 131072) (k : Fin 232) : EReal :=
  X (ix3 b ⟨k.val / 116, by have := k.isLt; omega⟩ ⟨k.val % 116, Nat.mod_lt _ (by decide)⟩)

/-- The whole result `[131072, 2]` as a function of the argument arrays. -/
def netOut (a0 a1 : (⟨3, ![131072, 2, 116]⟩ : Shape).Idx → EReal) (a2 : (⟨2, ![464, 64]⟩ : Shape).Idx → EReal)
    (a3 : (⟨1, ![64]⟩ : Shape).Idx → EReal) (a4 : (⟨2, ![64, 32]⟩ : Shape).Idx → EReal) (a5 : (⟨1, ![32]⟩ : Shape).Idx → EReal)
    (a6 : (⟨2, ![32, 2]⟩ : Shape).Idx → EReal) (a7 : (⟨1, ![2]⟩ : Shape).Idx → EReal) :
    (⟨2, ![131072, 2]⟩ : Shape).Idx → EReal :=
  fun i => rowOut (frow a0 (i 0)) (frow a1 (i 0)) (fun k n => a2 (ix2 (Fin.castAdd 232 k : Fin 464) n))
    (fun k n => a2 (ix2 (Fin.natAdd 232 k : Fin 464) n)) (fun n => a3 (ix1 n)) (fun n p => a4 (ix2 n p)) (fun p => a5 (ix1 p))
    (fun p o => a6 (ix2 p o)) (fun o => a7 (ix1 o)) (i 1)

end Cert.GatedMlp

end
-- ==== Proof.KernelArray.lean ====
/-
  From the kernel's blocks to its whole result array, at the ideal values.

  Grid point `t` (of 64) works on rows `2048 t … 2048 t + 2047`: its two input blocks are those rows of the inputs
  flattened to `[131072, 232]` — entry `(b, k)` of the flattened array is entry `(b, k / 116, k % 116)` of the argument —,
  the two halves of the first weight matrix are rows `k` and `232 + k` of the argument, and the other operands are whole
  arguments. So what point `t` writes back is block `t` of the network function `netOut` of the arguments; the 64 blocks
  tile the result, which therefore ends holding `netOut`.
-/
import proofs.«101484_j73023033966684_2_alg».proof.Proof.Gen.KernelIdeal.Value
import proofs.«101484_j73023033966684_2_alg».proof.Proof.KernelRow
import proofs.«101484_j73023033966684_2_alg».proof.Proof.ArraySpec
import Idealize.ShloMosaic.Lib.Pipeline.Value
import Idealize.ShloMosaic.Lib.ValueIdx
import Idealize.ShloMosaic.Lib.ValueLayout
import Idealize.ShloMosaic.Lib.StableHlo.Run
import Idealize.ShloMosaic.Lib.Tactic

set_option maxRecDepth 16384

noncomputable section

namespace Cert.KernelIdeal.ArrayValue

open Cert.KernelIdeal Cert.KernelIdeal.Gen Cert.KernelIdeal.Value Idealize.ShloMosaic Idealize.ShloMosaic.TcCoe Idealize.SL.Sem
open Idealize.ShloMosaic.ValueIdx Cert.GatedMlp
open Idealize.ShloMosaic.Pipeline (Dat)

variable (m : (ℓ : Loc nD τ sig) → Buf (Elt Ideal) ℓ) (ρ : Dev nD → PrngReg)

theorem hz2 : (![0, 0] : Fin 2 → Nat) = fun _ => 0 := funext fun a => by fin_cases a <;> rfl
theorem hz1 : (![0] : Fin 1 → Nat) = fun _ => 0 := funext fun a => by fin_cases a <;> rfl

/-- The block index maps over the grid: the two inputs and the result move down the rows with the point, every other
    operand stays at its one block. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ win0_4.index t (0 : Fin 1) = 0
    ∧ (win0_5.index t (0 : Fin 2) = 0 ∧ win0_5.index t (1 : Fin 2) = 0)
    ∧ win0_6.index t (0 : Fin 1) = 0
    ∧ (win0_7.index t (0 : Fin 2) = 0 ∧ win0_7.index t (1 : Fin 2) = 0)
    ∧ win0_8.index t (0 : Fin 1) = 0
    ∧ (win0_9.index t (0 : Fin 2) = t.val ∧ win0_9.index t (1 : Fin 2) = 0) :=
  (by decide +kernel : ∀ t : Fin grid0.N, _)

/-! ## The arrays the region finds: the host operations before it -/

/-- The first input, flattened by the host before the region. -/
theorem V_flatF (c : Dev nD) : (V m c main_call0_v0 : S131072x232.Idx → EReal)
    = shapeCast S131072x232 (m ((c : Thread nD τ).loc main_arg0) : S131072x2x116.Idx → EReal) shapeCasts_S131072x2x116_S131072x232 := by
  dsimp only [Gen.V, Gen.hostOps0]; after_results; rfl

/-- The second input, flattened likewise. -/
theorem V_flatS (c : Dev nD) : (V m c main_call0_v1 : S131072x232.Idx → EReal)
    = shapeCast S131072x232 (m ((c : Thread nD τ).loc main_arg1) : S131072x2x116.Idx → EReal) shapeCasts_S131072x2x116_S131072x232 := by
  dsimp only [Gen.V, Gen.hostOps0]; after_results; rfl

/-- The first 232 rows of the first weight matrix. -/
theorem V_w1f (c : Dev nD) : (V m c main_call0_v2 : S232x64.Idx → EReal)
    = extractStridedSlice S232x64 ![0, 0] (m ((c : Thread nD τ).loc main_arg2) : S464x64.Idx → EReal) slices_S464x64_S232x64_0_0 := by
  dsimp only [Gen.V, Gen.hostOps0]; after_results; rfl

/-- Its last 232 rows. -/
theorem V_w1s (c : Dev nD) : (V m c main_call0_v3 : S232x64.Idx → EReal)
    = extractStridedSlice S232x64 ![232, 0] (m ((c : Thread nD τ).loc main_arg2) : S464x64.Idx → EReal) slices_S464x64_S232x64_232_0 := by
  dsimp only [Gen.V, Gen.hostOps0]; after_results; rfl

/-- Entry `(b, k)` of a flattened input is entry `(b, k / 116, k % 116)` of the argument: both sit at row-major
    position `232 b + k`. -/
theorem flat_apply (X : S131072x2x116.Idx → EReal) (b : Fin 131072) (k : Fin 232) :
    shapeCast S131072x232 X shapeCasts_S131072x2x116_S131072x232 (ix2 b k) = frow X b k := by
  unfold frow
  refine shapeCast_apply X _ _ _ ?_
  rw [Shape.rowMajor_val_three, Shape.rowMajor_val_two]
  have hb := b.isLt; have hk := k.isLt
  show (b.val * 2 + k.val / 116) * 116 + k.val % 116 = b.val * 232 + k.val
  omega

/-! ## The blocks at a point, entry by entry -/

/-- Row `r` of the first input's block at point `t` is row `2048 t + r` of the argument, flattened. -/
theorem iblk0_apply (c : Dev nD) (t : Fin cfg0.N) (r : Fin 2048) (k : Fin 232) (b : Fin 131072) (hb : b.val = t.val * 2048 + r.val) :
    (iblk m c 0 t : Vec Ideal S2048x232 .f32) (ix2 r k) = frow (m ((c : Thread nD τ).loc main_arg0)) b k := by
  have e := (idx_facts t).1
  have hemb : ((cfg0.win 0).blk t).view.emb (ix2 r k) = (ix2 b k : S131072x232.Idx) := funext fun a => Fin.ext (by
    match a with
    | ⟨0, _⟩ => show win0_0.index t (0 : Fin 2) * 2048 + 1 * r.val = b.val; rw [e.1, hb]; omega
    | ⟨1, _⟩ => show win0_0.index t (1 : Fin 2) * 232 + 1 * k.val = k.val; rw [e.2]; omega)
  unfold iblk
  rw [View.read_apply, hemb]
  show V m c main_call0_v0 _ = _
  rw [V_flatF]
  exact flat_apply _ b k

/-- The same for the second input. -/
theorem iblk1_apply (c : Dev nD) (t : Fin cfg0.N) (r : Fin 2048) (k : Fin 232) (b : Fin 131072) (hb : b.val = t.val * 2048 + r.val) :
    (iblk m c 1 t : Vec Ideal S2048x232 .f32) (ix2 r k) = frow (m ((c : Thread nD τ).loc main_arg1)) b k := by
  have e := (idx_facts t).2.1
  have hemb : ((cfg0.win 1).blk t).view.emb (ix2 r k) = (ix2 b k : S131072x232.Idx) := funext fun a => Fin.ext (by
    match a with
    | ⟨0, _⟩ => show win0_1.index t (0 : Fin 2) * 2048 + 1 * r.val = b.val; rw [e.1, hb]; omega
    | ⟨1, _⟩ => show win0_1.index t (1 : Fin 2) * 232 + 1 * k.val = k.val; rw [e.2]; omega)
  unfold iblk
  rw [View.read_apply, hemb]
  show V m c main_call0_v1 _ = _
  rw [V_flatS]
  exact flat_apply _ b k

/-- The first weight half's one block is rows `0 … 231` of the first weight matrix. -/
theorem iblk2_apply (c : Dev nD) (t : Fin cfg0.N) (k : Fin 232) (n : Fin 64) :
    (iblk m c 2 t : Vec Ideal S232x64 .f32) (ix2 k n)
      = (m ((c : Thread nD τ).loc main_arg2) : S464x64.Idx → EReal) (ix2 (Fin.castAdd 232 k : Fin 464) n) := by
  have e := (idx_facts t).2.2.1
  have hemb : ((cfg0.win 2).blk t).view.emb (ix2 k n) = (ix2 k n : S232x64.Idx) := funext fun a => Fin.ext (by
    match a with
    | ⟨0, _⟩ => show win0_2.index t (0 : Fin 2) * 232 + 1 * k.val = k.val; rw [e.1]; omega
    | ⟨1, _⟩ => show win0_2.index t (1 : Fin 2) * 64 + 1 * n.val = n.val; rw [e.2]; omega)
  unfold iblk
  rw [View.read_apply, hemb]
  show V m c main_call0_v2 _ = _
  rw [V_w1f]
  exact slice2_axis0_apply 0 _ slices_S464x64_S232x64_0_0 k n (Fin.castAdd 232 k : Fin 464) (Nat.zero_add _).symm

/-- The second weight half's one block is rows `232 … 463`. -/
theorem iblk3_apply (c : Dev nD) (t : Fin cfg0.N) (k : Fin 232) (n : Fin 64) :
    (iblk m c 3 t : Vec Ideal S232x64 .f32) (ix2 k n)
      = (m ((c : Thread nD τ).loc main_arg2) : S464x64.Idx → EReal) (ix2 (Fin.natAdd 232 k : Fin 464) n) := by
  have e := (idx_facts t).2.2.2.1
  have hemb : ((cfg0.win 3).blk t).view.emb (ix2 k n) = (ix2 k n : S232x64.Idx) := funext fun a => Fin.ext (by
    match a with
    | ⟨0, _⟩ => show win0_3.index t (0 : Fin 2) * 232 + 1 * k.val = k.val; rw [e.1]; omega
    | ⟨1, _⟩ => show win0_3.index t (1 : Fin 2) * 64 + 1 * n.val = n.val; rw [e.2]; omega)
  unfold iblk
  rw [View.read_apply, hemb]
  show V m c main_call0_v3 _ = _
  rw [V_w1s]
  exact slice2_axis0_apply 232 _ slices_S464x64_S232x64_232_0 k n (Fin.natAdd 232 k : Fin 464) rfl

/-- The first bias is a whole argument. -/
theorem iblk4_apply (c : Dev nD) (t : Fin cfg0.N) (n : Fin 64) :
    (iblk m c 4 t : Vec Ideal S64 .f32) (ix1 n) = (m ((c : Thread nD τ).loc main_arg3) : S64.Idx → EReal) (ix1 n) := by
  have e := (idx_facts t).2.2.2.2.1
  have hemb : ((cfg0.win 4).blk t).view.emb (ix1 n) = (ix1 n : S64.Idx) := funext fun a => Fin.ext (by
    match a with
    | ⟨0, _⟩ => show win0_4.index t (0 : Fin 1) * 64 + 1 * n.val = n.val; rw [e]; omega)
  unfold iblk
  rw [View.read_apply, hemb]
  show V m c main_arg3 _ = _
  rw [V_main_arg3]

/-- The second weight matrix is a whole argument. -/
theorem iblk5_apply (c : Dev nD) (t : Fin cfg0.N) (n : Fin 64) (p : Fin 32) :
    (iblk m c 5 t : Vec Ideal S64x32 .f32) (ix2 n p) = (m ((c : Thread nD τ).loc main_arg4) : S64x32.Idx → EReal) (ix2 n p) := by
  have e := (idx_facts t).2.2.2.2.2.1
  have hemb : ((cfg0.win 5).blk t).view.emb (ix2 n p) = (ix2 n p : S64x32.Idx) := funext fun a => Fin.ext (by
    match a with
    | ⟨0, _⟩ => show win0_5.index t (0 : Fin 2) * 64 + 1 * n.val = n.val; rw [e.1]; omega
    | ⟨1, _⟩ => show win0_5.index t (1 : Fin 2) * 32 + 1 * p.val = p.val; rw [e.2]; omega)
  unfold iblk
  rw [View.read_apply, hemb]
  show V m c main_arg4 _ = _
  rw [V_main_arg4]

/-- The second bias is a whole argument. -/
theorem iblk6_apply (c : Dev nD) (t : Fin cfg0.N) (p : Fin 32) :
    (iblk m c 6 t : Vec Ideal S32 .f32) (ix1 p) = (m ((c : Thread nD τ).loc main_arg5) : S32.Idx → EReal) (ix1 p) := by
  have e := (idx_facts t).2.2.2.2.2.2.1
  have hemb : ((cfg0.win 6).blk t).view.emb (ix1 p) = (ix1 p : S32.Idx) := funext fun a => Fin.ext (by
    match a with
    | ⟨0, _⟩ => show win0_6.index t (0 : Fin 1) * 32 + 1 * p.val = p.val; rw [e]; omega)
  unfold iblk
  rw [View.read_apply, hemb]
  show V m c main_arg5 _ = _
  rw [V_main_arg5]

/-- The third weight matrix is a whole argument. -/
theorem iblk7_apply (c : Dev nD) (t : Fin cfg0.N) (p : Fin 32) (o : Fin 2) :
    (iblk m c 7 t : Vec Ideal S32x2 .f32) (ix2 p o) = (m ((c : Thread nD τ).loc main_arg6) : S32x2.Idx → EReal) (ix2 p o) := by
  have e := (idx_facts t).2.2.2.2.2.2.2.1
  have hemb : ((cfg0.win 7).blk t).view.emb (ix2 p o) = (ix2 p o : S32x2.Idx) := funext fun a => Fin.ext (by
    match a with
    | ⟨0, _⟩ => show win0_7.index t (0 : Fin 2) * 32 + 1 * p.val = p.val; rw [e.1]; omega
    | ⟨1, _⟩ => show win0_7.index t (1 : Fin 2) * 2 + 1 * o.val = o.val; rw [e.2]; omega)
  unfold iblk
  rw [View.read_apply, hemb]
  show V m c main_arg6 _ = _
  rw [V_main_arg6]

/-- The third bias is a whole argument. -/
theorem iblk8_apply (c : Dev nD) (t : Fin cfg0.N) (o : Fin 2) :
    (iblk m c 8 t : Vec Ideal S2 .f32) (ix1 o) = (m ((c : Thread nD τ).loc main_arg7) : S2.Idx → EReal) (ix1 o) := by
  have e := (idx_facts t).2.2.2.2.2.2.2.2.1
  have hemb : ((cfg0.win 8).blk t).view.emb (ix1 o) = (ix1 o : S2.Idx) := funext fun a => Fin.ext (by
    match a with
    | ⟨0, _⟩ => show win0_8.index t (0 : Fin 1) * 2 + 1 * o.val = o.val; rw [e]; omega)
  unfold iblk
  rw [View.read_apply, hemb]
  show V m c main_arg7 _ = _
  rw [V_main_arg7]

/-! ## What a point writes back, and the whole array -/

/-- The result array as the network function of the argument arrays. -/
abbrev result (c : Dev nD) : S131072x2.Idx → EReal :=
  netOut (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7))

/-- What the body leaves in the result's staging buffer at point `t`: its two payloads of the point's input blocks. -/
abbrev blockOut (c : Dev nD) (t : Fin cfg0.N) : Vec Ideal S2048x2 .f32 :=
  k0_pay1 (k0_pay2 (iblk m c 0 t) (iblk m c 1 t) (iblk m c 2 t) (iblk m c 3 t) (iblk m c 4 t) (iblk m c 5 t))
    (iblk m c 6 t) (iblk m c 7 t) (iblk m c 8 t)

/-- The body's store at point `t`, entry `(r, o)`, is the network function at `(2048 t + r, o)`. -/
theorem point_apply (c : Dev nD) (t : Fin cfg0.N) (r : Fin 2048) (o : Fin 2) (b : Fin 131072) (hb : b.val = t.val * 2048 + r.val) :
    blockOut m c t (ix2 r o) = result m c (ix2 b o) := by
  refine (RowValue.pay_apply (iblk m c 0 t) (iblk m c 1 t) (iblk m c 2 t) (iblk m c 3 t) (iblk m c 4 t) (iblk m c 5 t)
    (iblk m c 6 t) (iblk m c 7 t) (iblk m c 8 t) r o).trans ?_
  have h0 : (fun k => (iblk m c 0 t : Vec Ideal S2048x232 .f32) (ix2 r k)) = frow (m ((c : Thread nD τ).loc main_arg0)) b :=
    funext fun k => iblk0_apply m c t r k b hb
  have h1 : (fun k => (iblk m c 1 t : Vec Ideal S2048x232 .f32) (ix2 r k)) = frow (m ((c : Thread nD τ).loc main_arg1)) b :=
    funext fun k => iblk1_apply m c t r k b hb
  have h2 : (fun k n => (iblk m c 2 t : Vec Ideal S232x64 .f32) (ix2 k n))
      = fun k n => (m ((c : Thread nD τ).loc main_arg2) : S464x64.Idx → EReal) (ix2 (Fin.castAdd 232 k : Fin 464) n) :=
    funext fun k => funext fun n => iblk2_apply m c t k n
  have h3 : (fun k n => (iblk m c 3 t : Vec Ideal S232x64 .f32) (ix2 k n))
      = fun k n => (m ((c : Thread nD τ).loc main_arg2) : S464x64.Idx → EReal) (ix2 (Fin.natAdd 232 k : Fin 464) n) :=
    funext fun k => funext fun n => iblk3_apply m c t k n
  have h4 : (fun n => (iblk m c 4 t : Vec Ideal S64 .f32) (ix1 n)) = fun n => (m ((c : Thread nD τ).loc main_arg3) : S64.Idx → EReal) (ix1 n) :=
    funext fun n => iblk4_apply m c t n
  have h5 : (fun n p => (iblk m c 5 t : Vec Ideal S64x32 .f32) (ix2 n p)) = fun n p => (m ((c : Thread nD τ).loc main_arg4) : S64x32.Idx → EReal) (ix2 n p) :=
    funext fun n => funext fun p => iblk5_apply m c t n p
  have h6 : (fun p => (iblk m c 6 t : Vec Ideal S32 .f32) (ix1 p)) = fun p => (m ((c : Thread nD τ).loc main_arg5) : S32.Idx → EReal) (ix1 p) :=
    funext fun p => iblk6_apply m c t p
  have h7 : (fun p o => (iblk m c 7 t : Vec Ideal S32x2 .f32) (ix2 p o)) = fun p o => (m ((c : Thread nD τ).loc main_arg6) : S32x2.Idx → EReal) (ix2 p o) :=
    funext fun p => funext fun o => iblk7_apply m c t p o
  have h8 : (fun o => (iblk m c 8 t : Vec Ideal S2 .f32) (ix1 o)) = fun o => (m ((c : Thread nD τ).loc main_arg7) : S2.Idx → EReal) (ix1 o) :=
    funext fun o => iblk8_apply m c t o
  rw [h0, h1, h2, h3, h4, h5, h6, h7, h8]
  rfl

/-- The same at any index `y` of the block. -/
theorem point_apply' (c : Dev nD) (t : Fin cfg0.N) (y : S2048x2.Idx) (b : Fin 131072) (hb : b.val = t.val * 2048 + (y 0).val) :
    blockOut m c t y = result m c (ix2 b (y 1)) := by
  obtain ⟨r, o, rfl⟩ : ∃ (r : Fin 2048) (o : Fin 2), y = ix2 r o := ⟨y 0, y 1, eq_ix2 y⟩
  exact point_apply m c t r o b hb

/-- WHAT POINT `t` WRITES BACK is block `t` of the network function of the argument arrays. -/
theorem flushed_eq (c : Dev nD) (t : Fin cfg0.N) :
    (dats m 0 c).flushed 9 t = ((cfg0.win 9).blk t).view.read (Elt Ideal) (result m c) := by
  rw [Value.flushed9]
  unfold out0_9
  rw [View.canon_unit_zero hz2]
  simp only [View.ld_unit_zero (S := S2048x232) hz2, View.ld_unit_zero (S := S232x64) hz2, View.ld_unit_zero (S := S64) hz1,
    View.ld_unit_zero (S := S64x32) hz2, View.ld_unit_zero (S := S32) hz1, View.ld_unit_zero (S := S32x2) hz2,
    View.ld_unit_zero (S := S2) hz1]
  funext y
  have e := (idx_facts t).2.2.2.2.2.2.2.2.2
  have hy0 : (y 0).val < 2048 := (y 0).isLt
  have hy1 : (y 1).val < 2 := (y 1).isLt
  have ht : t.val < 64 := Nat.lt_of_lt_of_eq t.isLt N_0
  have hemb : ((cfg0.win 9).blk t).view.emb y
      = (ix2 (⟨t.val * 2048 + (y 0).val, by omega⟩ : Fin 131072) (⟨(y 1).val, hy1⟩ : Fin 2) : S131072x2.Idx) := funext fun a => Fin.ext (by
    match a with
    | ⟨0, _⟩ => show win0_9.index t (0 : Fin 2) * 2048 + 1 * (y 0).val = t.val * 2048 + (y 0).val; rw [e.1]; omega
    | ⟨1, _⟩ => show win0_9.index t (1 : Fin 2) * 2 + 1 * (y 1).val = (y 1).val; rw [e.2]; omega)
  show blockOut m c t y = result m c (((cfg0.win 9).blk t).view.emb y)
  rw [hemb]
  exact point_apply' m c t y ⟨t.val * 2048 + (y 0).val, by omega⟩ rfl

/-- Every row of the result lies in some point's block: row `b` in the block of point `b / 2048`. -/
theorem cover (i : S131072x2.Idx) : ∃ t : Fin cfg0.N, (cfg0.win 9).flush t = true ∧ i ∈ ((cfg0.win 9).blk t).view.set := by
  have hi0 : (i 0).val < 131072 := (i 0).isLt
  have hi1 : (i 1).val < 2 := (i 1).isLt
  let t : Fin cfg0.N := ⟨(i 0).val / 2048, by rw [show cfg0.N = 64 from N_0]; omega⟩
  have e := (idx_facts t).2.2.2.2.2.2.2.2.2
  have htv : t.val = (i 0).val / 2048 := rfl
  refine ⟨t, flush0_9 t, ?_⟩
  show i ∈ ((View.whole main_v0).slice (win0_9.rect t)).set
  rw [View.set_slice_whole, Rect.mem_set_unit]
  intro a
  match a with
  | ⟨0, _⟩ =>
    show win0_9.index t (0 : Fin 2) * 2048 ≤ (i 0).val ∧ (i 0).val < win0_9.index t (0 : Fin 2) * 2048 + 2048
    rw [e.1, htv]; omega
  | ⟨1, _⟩ =>
    show win0_9.index t (1 : Fin 2) * 2 ≤ (i 1).val ∧ (i 1).val < win0_9.index t (1 : Fin 2) * 2 + 2
    rw [e.2]; omega

/-- THE ARRAY after the run is the network function of the argument arrays. -/
theorem final (c : Dev nD) : (dats m 0 c).arrAt 9 cfg0.N = result m c :=
  (dats m 0 c).arrAt_eq_of_cover 9 (result m c) (fun t _ => flushed_eq m c t) cover

/-- The kernel's run, read: the result array at the network function of the arguments, the arguments unchanged. -/
theorem run : θ_run defs (onTc (τ := τ) (main (F := Ideal))) ⟨m, fun _ => 0, ρ⟩ fun r => ∀ c : Dev nD,
      r.2.mem ((c : Thread nD τ).loc main_v0) = result m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7) :=
  (θ_run defs _ _).mono (fun r h c => ⟨(h c).1.trans (final m c), (h c).2⟩) (Value.run_blocks m ρ)

end Cert.KernelIdeal.ArrayValue

end
-- ==== Proof.RefRow.lean ====
/-
  The reference program's result, element by element, is the row function of the network.

  Each operation of the reference is read at explicit coordinates: the two channel means and their logistic gate at
  (b, j); the gated inputs, joined along the channel axis and flattened, at (b, k); the three affine layers as sums over
  their contracted axis; the softmax as the quotient of an exponential by the sum of the two. Only commutativity and
  associativity of + and · on the extended reals are used: no input is assumed finite.
-/
import proofs.«101484_j73023033966684_2_alg».proof.Proof.Gen.ReferenceIdeal.Read
import proofs.«101484_j73023033966684_2_alg».proof.Proof.ArraySpec
import Idealize.ShloMosaic.Lib.ValueIdx
import Idealize.ShloMosaic.Lib.ValueLayout
import Idealize.ShloMosaic.Lib.Pipeline.Value
import Idealize.ShloMosaic.PureOps.Ideal.Laws
import Idealize.ShloMosaic.PureOps.Reduce

noncomputable section

namespace Cert.ReferenceIdeal.RefValue

open Idealize.ShloMosaic Idealize.ShloMosaic.ValueIdx Cert.GatedMlp Cert.ReferenceIdeal Cert.ReferenceIdeal.Gen Cert.ReferenceIdeal.Read

/-! ## The float words that occur -/

/-- The word of `2.0` denotes the real 2. -/
theorem ofBits_two : Ideal.ofBits .f32 0x40000000#32 = ((2 : ℝ) : EReal) := by
  simp [Ideal.ofBits, Ideal.ieee, -EReal.coe_mul]; norm_num

/-- The word of `0.5` denotes the real 1/2. -/
theorem ofBits_half : Ideal.ofBits .f32 0x3F000000#32 = ((1 / 2 : ℝ) : EReal) := by
  simp [Ideal.ofBits, Ideal.ieee, -EReal.coe_mul]; norm_num

/-- The word of `1.0` denotes 1. -/
theorem ofBits_one : Ideal.ofBits .f32 0x3F800000#32 = 1 := by
  simp [Ideal.ofBits, Ideal.ieee, -EReal.coe_mul]; norm_num

/-- Dividing by the word of 2 is multiplying by the word of 1/2, for every extended real. -/
theorem div_two (x : EReal) :
    Ideal.div x (Ideal.ofBits .f32 0x40000000#32) = Ideal.ofBits .f32 0x3F000000#32 * x := by
  rw [ofBits_two, ofBits_half, Ideal.div_coe (by norm_num : (2 : ℝ) ≠ 0), mul_comm]

/-! ## The gate at (b, j) -/

/-- Lane `j` of the first channel of a flattened row is the array at (b, 0, j). -/
theorem frow_ch0 (X : S131072x2x116.Idx → EReal) (b : Fin 131072) (j : Fin 116) :
    frow X b (ch0 j) = X (ix3 b (0 : Fin 2) j) := by
  unfold frow ch0
  refine congrArg X (funext fun a => Fin.ext ?_)
  have hj := j.isLt
  match a with
  | ⟨0, _⟩ => rfl
  | ⟨1, _⟩ => show j.val / 116 = 0; omega
  | ⟨2, _⟩ => show j.val % 116 = j.val; omega

/-- Lane `j` of the second channel of a flattened row is the array at (b, 1, j). -/
theorem frow_ch1 (X : S131072x2x116.Idx → EReal) (b : Fin 131072) (j : Fin 116) :
    frow X b (ch1 j) = X (ix3 b (1 : Fin 2) j) := by
  unfold frow ch1
  refine congrArg X (funext fun a => Fin.ext ?_)
  have hj := j.isLt
  match a with
  | ⟨0, _⟩ => rfl
  | ⟨1, _⟩ => show (116 + j.val) / 116 = 1; omega
  | ⟨2, _⟩ => show (116 + j.val) % 116 = j.val; omega

/-- The mean of the first input's two channels at (b, j). -/
theorem mean0_apply (x0 : (⟨S131072x2x116, .f32⟩ : BufTy).Contents (Elt Ideal)) (b : Fin 131072) (j : Fin 116) :
    val_main_v2 (F := Ideal) x0 (ix2 b j)
      = Ideal.ofBits .f32 0x3F000000#32 * (frow x0 b (ch0 j) + frow x0 b (ch1 j)) := by
  have e0 : idx_main_v0 (ix2 b j) 0 = ix3 b (0 : Fin 2) j :=
    funext fun a => Fin.ext (by match a with | ⟨0, _⟩ => rfl | ⟨1, _⟩ => rfl | ⟨2, _⟩ => rfl)
  have e1 : idx_main_v0 (ix2 b j) 1 = ix3 b (1 : Fin 2) j :=
    funext fun a => Fin.ext (by match a with | ⟨0, _⟩ => rfl | ⟨1, _⟩ => rfl | ⟨2, _⟩ => rfl)
  rw [val_main_v2_apply, val_main_v0_apply, val_main_v1_apply, val_main_cst_0_apply, val_main_cst_apply,
    Fin.sum_univ_two, e0, e1, frow_ch0, frow_ch1]
  simp only [Ideal.hostDivf_def, Ideal.ofBits_def]
  rw [Ideal.ofBits_zero_f32, zero_add, div_two]

/-- The mean of the second input's two channels at (b, j). -/
theorem mean1_apply (x1 : (⟨S131072x2x116, .f32⟩ : BufTy).Contents (Elt Ideal)) (b : Fin 131072) (j : Fin 116) :
    val_main_v5 (F := Ideal) x1 (ix2 b j)
      = Ideal.ofBits .f32 0x3F000000#32 * (frow x1 b (ch0 j) + frow x1 b (ch1 j)) := by
  have e0 : idx_main_v3 (ix2 b j) 0 = ix3 b (0 : Fin 2) j :=
    funext fun a => Fin.ext (by match a with | ⟨0, _⟩ => rfl | ⟨1, _⟩ => rfl | ⟨2, _⟩ => rfl)
  have e1 : idx_main_v3 (ix2 b j) 1 = ix3 b (1 : Fin 2) j :=
    funext fun a => Fin.ext (by match a with | ⟨0, _⟩ => rfl | ⟨1, _⟩ => rfl | ⟨2, _⟩ => rfl)
  rw [val_main_v5_apply, val_main_v3_apply, val_main_v4_apply, val_main_cst_2_apply, val_main_cst_1_apply,
    Fin.sum_univ_two, e0, e1, frow_ch0, frow_ch1]
  simp only [Ideal.hostDivf_def, Ideal.ofBits_def]
  rw [Ideal.ofBits_zero_f32, zero_add, div_two]

/-- The reference's expansion of the logistic, one over one plus the exponential of the negation, at (b, j) is the
    gate of lane `j` of row `b`. -/
theorem gate_apply (x0 x1 : (⟨S131072x2x116, .f32⟩ : BufTy).Contents (Elt Ideal)) (b : Fin 131072) (j : Fin 116) :
    val_main_v12 (F := Ideal) x0 x1 (ix2 b j) = gate (frow x0 b) (frow x1 b) j := by
  rw [val_main_v12_apply, val_main_v11_apply, val_main_cst_4_apply, val_main_v10_apply, val_main_v9_apply,
    val_main_cst_3_apply, val_main_v8_apply, val_main_v7_apply, val_main_v6_apply, mean0_apply, mean1_apply]
  simp only [Ideal.hostDivf_def, Ideal.addf_def, Ideal.mulf_def, Ideal.hostUnary_exp_def, Ideal.hostNegf_def,
    Ideal.negf_def, Ideal.ofBits_def]
  rw [ofBits_one]
  rfl

/-! ## The gated inputs, joined along the channel axis and flattened -/

/-- The gate laid over the two channels, as the first input's factor: at (b, c, j) it is the gate of lane `j`. -/
theorem gateOver0_apply (x0 x1 : (⟨S131072x2x116, .f32⟩ : BufTy).Contents (Elt Ideal)) (b : Fin 131072) (c : Fin 2) (j : Fin 116) :
    val_main_v14 (F := Ideal) x0 x1 (ix3 b c j) = gate (frow x0 b) (frow x1 b) j := by
  have e : idx_main_v13 (idx_main_v14 (ix3 b c j)) = ix2 b j :=
    funext fun a => Fin.ext (by match a with | ⟨0, _⟩ => rfl | ⟨1, _⟩ => rfl)
  rw [val_main_v14_apply, val_main_v13_apply, e, gate_apply]

/-- The same, as the second input's factor. -/
theorem gateOver1_apply (x0 x1 : (⟨S131072x2x116, .f32⟩ : BufTy).Contents (Elt Ideal)) (b : Fin 131072) (c : Fin 2) (j : Fin 116) :
    val_main_v16 (F := Ideal) x0 x1 (ix3 b c j) = gate (frow x0 b) (frow x1 b) j := by
  have e : idx_main_v13 (idx_main_v16 (ix3 b c j)) = ix2 b j :=
    funext fun a => Fin.ext (by match a with | ⟨0, _⟩ => rfl | ⟨1, _⟩ => rfl)
  rw [val_main_v16_apply, val_main_v13_apply, e, gate_apply]

/-- Channels 0 and 1 of the joined array are the first input's, gated. -/
theorem joined_left (x0 x1 : (⟨S131072x2x116, .f32⟩ : BufTy).Contents (Elt Ideal)) (b : Fin 131072) (c : Fin 2) (j : Fin 116) (c4 : Fin 4) (hc : c4.val = c.val) :
    val_main_v18 (F := Ideal) x0 x1 (ix3 b c4 j) = x0 (ix3 b c j) * gate (frow x0 b) (frow x1 b) j := by
  unfold val_main_v18
  refine (concatenate_pair_apply_left (t := S131072x4x116) (s₁ := S131072x2x116) (s₂ := S131072x2x116) 1
    (val_main_v15 (F := Ideal) x0 x1) (val_main_v17 (F := Ideal) x0 x1)
    concatenates_S131072x2x116_S131072x2x116_S131072x4x116_d1 (ix3 b c4 j) rfl (ix3 b c j) ?_).trans ?_
  · intro a
    match a with
    | ⟨0, _⟩ => rfl
    | ⟨1, _⟩ => exact hc.symm
    | ⟨2, _⟩ => rfl
  · simp only [val_main_v15_apply, gateOver0_apply, Ideal.mulf_def]

/-- Channels 2 and 3 of the joined array are the second input's, gated. -/
theorem joined_right (x0 x1 : (⟨S131072x2x116, .f32⟩ : BufTy).Contents (Elt Ideal)) (b : Fin 131072) (c : Fin 2) (j : Fin 116) (c4 : Fin 4) (hc : c4.val = 2 + c.val) :
    val_main_v18 (F := Ideal) x0 x1 (ix3 b c4 j) = x1 (ix3 b c j) * gate (frow x0 b) (frow x1 b) j := by
  unfold val_main_v18
  refine (concatenate_pair_apply_right (t := S131072x4x116) (s₁ := S131072x2x116) (s₂ := S131072x2x116) 1
    (val_main_v15 (F := Ideal) x0 x1) (val_main_v17 (F := Ideal) x0 x1)
    concatenates_S131072x2x116_S131072x2x116_S131072x4x116_d1 (ix3 b c4 j) rfl rfl (ix3 b c j) ?_ ?_).trans ?_
  · intro a ha
    match a, ha with
    | ⟨0, _⟩, _ => rfl
    | ⟨1, _⟩, ha => exact (ha rfl).elim
    | ⟨2, _⟩, _ => rfl
  · show c.val + 2 = c4.val
    omega
  · simp only [val_main_v17_apply, gateOver1_apply, Ideal.mulf_def]

/-- The flattening read backwards: entry (b, K) of the flattened array is the joined array at channel K / 116,
    lane K % 116. -/
theorem flat_apply (x0 x1 : (⟨S131072x2x116, .f32⟩ : BufTy).Contents (Elt Ideal)) (b : Fin 131072) (K : Fin 464) (c4 : Fin 4) (j : Fin 116)
    (hc : c4.val = K.val / 116) (hj : j.val = K.val % 116) :
    val_main_v19 (F := Ideal) x0 x1 (ix2 b K) = val_main_v18 (F := Ideal) x0 x1 (ix3 b c4 j) := by
  rw [val_main_v19_apply]
  refine congrArg (val_main_v18 (F := Ideal) x0 x1) (funext fun a => Fin.ext ?_)
  have hb := b.isLt
  have hK := K.isLt
  match a with
  | ⟨0, _⟩ => show (b.val * 464 + K.val) / 464 = b.val; omega
  | ⟨1, _⟩ => show (b.val * 464 + K.val) / 116 % 4 = c4.val; omega
  | ⟨2, _⟩ => show (b.val * 464 + K.val) % 116 = j.val; omega

/-- The gate of entry `k` of a flattened row is the gate of its lane `k % 116`. -/
theorem gate2_eq (f s : Fin 232 → EReal) (k : Fin 232) :
    gate2 f s k = gate f s (⟨k.val % 116, Nat.mod_lt _ (by decide)⟩ : Fin 116) := by
  have hk := k.isLt
  unfold gate2
  split
  · exact congrArg (gate f s) (Fin.ext (by show k.val = k.val % 116; omega))
  · exact congrArg (gate f s) (Fin.ext (by show k.val - 116 = k.val % 116; omega))

/-- Entry `k` of the first half of the flattened gated row: the first input's entry, gated. -/
theorem flat_left (x0 x1 : (⟨S131072x2x116, .f32⟩ : BufTy).Contents (Elt Ideal)) (b : Fin 131072) (k : Fin 232) :
    val_main_v19 (F := Ideal) x0 x1 (ix2 b (Fin.castAdd 232 k : Fin 464)) = frow x0 b k * gate2 (frow x0 b) (frow x1 b) k := by
  have hk := k.isLt
  rw [gate2_eq, flat_apply x0 x1 b (Fin.castAdd 232 k : Fin 464) (⟨k.val / 116, by omega⟩ : Fin 4)
    (⟨k.val % 116, Nat.mod_lt _ (by decide)⟩ : Fin 116) rfl rfl]
  exact joined_left x0 x1 b (⟨k.val / 116, by omega⟩ : Fin 2) (⟨k.val % 116, Nat.mod_lt _ (by decide)⟩ : Fin 116)
    (⟨k.val / 116, by omega⟩ : Fin 4) rfl

/-- Entry `k` of the second half of the flattened gated row: the second input's entry, gated. -/
theorem flat_right (x0 x1 : (⟨S131072x2x116, .f32⟩ : BufTy).Contents (Elt Ideal)) (b : Fin 131072) (k : Fin 232) :
    val_main_v19 (F := Ideal) x0 x1 (ix2 b (Fin.natAdd 232 k : Fin 464)) = frow x1 b k * gate2 (frow x0 b) (frow x1 b) k := by
  have hk := k.isLt
  rw [gate2_eq, flat_apply x0 x1 b (Fin.natAdd 232 k : Fin 464) (⟨2 + k.val / 116, by omega⟩ : Fin 4)
    (⟨k.val % 116, Nat.mod_lt _ (by decide)⟩ : Fin 116)
    (by show 2 + k.val / 116 = (232 + k.val) / 116; omega) (by show k.val % 116 = (232 + k.val) % 116; omega)]
  exact joined_right x0 x1 b (⟨k.val / 116, by omega⟩ : Fin 2) (⟨k.val % 116, Nat.mod_lt _ (by decide)⟩ : Fin 116)
    (⟨2 + k.val / 116, by omega⟩ : Fin 4) rfl

/-! ## The first layer -/

/-- The first bias, laid over the rows. -/
theorem bias1_apply (x3 : (⟨S64, .f32⟩ : BufTy).Contents (Elt Ideal)) (b : Fin 131072) (n : Fin 64) :
    val_main_v22 (F := Ideal) x3 (ix2 b n) = x3 (ix1 n) := by
  rw [val_main_v22_apply, val_main_v21_apply]
  exact congrArg x3 (funext fun a => Fin.ext (by match a with | ⟨0, _⟩ => rfl))

/-- The first layer before its rectifier: the contraction over the 464 flattened entries, split into its two halves of
    232, plus the bias. -/
theorem pre1_apply (x0 x1 : (⟨S131072x2x116, .f32⟩ : BufTy).Contents (Elt Ideal)) (x2 : (⟨S464x64, .f32⟩ : BufTy).Contents (Elt Ideal)) (x3 : (⟨S64, .f32⟩ : BufTy).Contents (Elt Ideal)) (b : Fin 131072) (n : Fin 64) :
    val_main_v23 (F := Ideal) x0 x1 x2 x3 (ix2 b n) = pre1 (frow x0 b) (frow x1 b) (fun k n => x2 (ix2 (Fin.castAdd 232 k : Fin 464) n)) (fun k n => x2 (ix2 (Fin.natAdd 232 k : Fin 464) n)) (fun n => x3 (ix1 n)) n := by
  have el : ∀ K : Fin 464, lidx_main_v20 (ix2 b n) K = ix2 b K := fun K =>
    funext fun a => Fin.ext (by match a with | ⟨0, _⟩ => rfl | ⟨1, _⟩ => rfl)
  have er : ∀ K : Fin 464, ridx_main_v20 (ix2 b n) K = ix2 K n := fun K =>
    funext fun a => Fin.ext (by match a with | ⟨0, _⟩ => rfl | ⟨1, _⟩ => rfl)
  have hsum : val_main_v20 (F := Ideal) x0 x1 x2 (ix2 b n)
      = ∑ K : Fin 464, val_main_v19 (F := Ideal) x0 x1 (ix2 b K) * x2 (ix2 K n) := by
    rw [val_main_v20_apply]
    exact Finset.sum_congr rfl fun K _ => by rw [el, er]
  have hsplit : ∑ K : Fin 464, val_main_v19 (F := Ideal) x0 x1 (ix2 b K) * x2 (ix2 K n)
      = ∑ k : Fin 232, val_main_v19 (F := Ideal) x0 x1 (ix2 b (Fin.castAdd 232 k : Fin 464)) * x2 (ix2 (Fin.castAdd 232 k : Fin 464) n)
        + ∑ k : Fin 232, val_main_v19 (F := Ideal) x0 x1 (ix2 b (Fin.natAdd 232 k : Fin 464)) * x2 (ix2 (Fin.natAdd 232 k : Fin 464) n) :=
    Fin.sum_univ_add
      (fun K : Fin (232 + 232) => val_main_v19 (F := Ideal) x0 x1 (ix2 b (K : Fin 464)) * x2 (ix2 (K : Fin 464) n))
  rw [val_main_v23_apply, hsum, hsplit, bias1_apply]
  unfold pre1
  simp only [Ideal.addf_def]
  refine congrArg (· + x3 (ix1 n)) (congrArg₂ (· + ·) (Finset.sum_congr rfl fun k _ => ?_) (Finset.sum_congr rfl fun k _ => ?_))
  · rw [flat_left]
  · rw [flat_right]

/-! ## The second and third layers -/

/-- The first layer's output: the rectifier against the word of zero. -/
theorem h1_apply (x0 x1 : (⟨S131072x2x116, .f32⟩ : BufTy).Contents (Elt Ideal)) (x2 : (⟨S464x64, .f32⟩ : BufTy).Contents (Elt Ideal)) (x3 : (⟨S64, .f32⟩ : BufTy).Contents (Elt Ideal)) (b : Fin 131072) (n : Fin 64) :
    val_main_v24 (F := Ideal) x0 x1 x2 x3 (ix2 b n) = relu (pre1 (frow x0 b) (frow x1 b) (fun k n => x2 (ix2 (Fin.castAdd 232 k : Fin 464) n)) (fun k n => x2 (ix2 (Fin.natAdd 232 k : Fin 464) n)) (fun n => x3 (ix1 n)) n) := by
  rw [val_main_v24_apply, val_main_call0_v0_apply, val_main_call0_cst_apply, pre1_apply]
  rfl

/-- The second layer before its rectifier. -/
theorem pre2_apply (x0 x1 : (⟨S131072x2x116, .f32⟩ : BufTy).Contents (Elt Ideal)) (x2 : (⟨S464x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (b : Fin 131072) (p : Fin 32) :
    val_main_v28 (F := Ideal) x0 x1 x2 x3 x4 x5 (ix2 b p) = layer (fun n => relu (pre1 (frow x0 b) (frow x1 b) (fun k n => x2 (ix2 (Fin.castAdd 232 k : Fin 464) n)) (fun k n => x2 (ix2 (Fin.natAdd 232 k : Fin 464) n)) (fun n => x3 (ix1 n)) n)) (fun n p => x4 (ix2 n p)) (fun p => x5 (ix1 p)) p := by
  have el : ∀ k : Fin 64, lidx_main_v25 (ix2 b p) k = ix2 b k := fun k =>
    funext fun a => Fin.ext (by match a with | ⟨0, _⟩ => rfl | ⟨1, _⟩ => rfl)
  have er : ∀ k : Fin 64, ridx_main_v25 (ix2 b p) k = ix2 k p := fun k =>
    funext fun a => Fin.ext (by match a with | ⟨0, _⟩ => rfl | ⟨1, _⟩ => rfl)
  have hb : val_main_v27 (F := Ideal) x5 (ix2 b p) = x5 (ix1 p) := by
    rw [val_main_v27_apply, val_main_v26_apply]
    exact congrArg x5 (funext fun a => Fin.ext (by match a with | ⟨0, _⟩ => rfl))
  rw [val_main_v28_apply, val_main_v25_apply, hb]
  unfold layer
  simp only [Ideal.addf_def]
  refine congrArg (· + x5 (ix1 p)) (Finset.sum_congr rfl fun k _ => ?_)
  rw [el, er, h1_apply]

/-- The second layer's output. -/
theorem h2_apply (x0 x1 : (⟨S131072x2x116, .f32⟩ : BufTy).Contents (Elt Ideal)) (x2 : (⟨S464x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (b : Fin 131072) (p : Fin 32) :
    val_main_v29 (F := Ideal) x0 x1 x2 x3 x4 x5 (ix2 b p) = relu (layer (fun n => relu (pre1 (frow x0 b) (frow x1 b) (fun k n => x2 (ix2 (Fin.castAdd 232 k : Fin 464) n)) (fun k n => x2 (ix2 (Fin.natAdd 232 k : Fin 464) n)) (fun n => x3 (ix1 n)) n)) (fun n p => x4 (ix2 n p)) (fun p => x5 (ix1 p)) p) := by
  rw [val_main_v29_apply, val_main_call1_v0_apply, val_main_call1_cst_apply, pre2_apply]
  rfl

/-- The two logits of row `b`. -/
theorem logits_apply (x0 x1 : (⟨S131072x2x116, .f32⟩ : BufTy).Contents (Elt Ideal)) (x2 : (⟨S464x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x2, .f32⟩ : BufTy).Contents (Elt Ideal)) (x7 : (⟨S2, .f32⟩ : BufTy).Contents (Elt Ideal)) (b : Fin 131072) (o : Fin 2) :
    val_main_v33 (F := Ideal) x0 x1 x2 x3 x4 x5 x6 x7 (ix2 b o) = layer (fun p => relu (layer (fun n => relu (pre1 (frow x0 b) (frow x1 b) (fun k n => x2 (ix2 (Fin.castAdd 232 k : Fin 464) n)) (fun k n => x2 (ix2 (Fin.natAdd 232 k : Fin 464) n)) (fun n => x3 (ix1 n)) n)) (fun n p => x4 (ix2 n p)) (fun p => x5 (ix1 p)) p)) (fun p o => x6 (ix2 p o)) (fun o => x7 (ix1 o)) o := by
  have el : ∀ k : Fin 32, lidx_main_v30 (ix2 b o) k = ix2 b k := fun k =>
    funext fun a => Fin.ext (by match a with | ⟨0, _⟩ => rfl | ⟨1, _⟩ => rfl)
  have er : ∀ k : Fin 32, ridx_main_v30 (ix2 b o) k = ix2 k o := fun k =>
    funext fun a => Fin.ext (by match a with | ⟨0, _⟩ => rfl | ⟨1, _⟩ => rfl)
  have hb : val_main_v32 (F := Ideal) x7 (ix2 b o) = x7 (ix1 o) := by
    rw [val_main_v32_apply, val_main_v31_apply]
    exact congrArg x7 (funext fun a => Fin.ext (by match a with | ⟨0, _⟩ => rfl))
  rw [val_main_v33_apply, val_main_v30_apply, hb]
  unfold layer
  simp only [Ideal.addf_def]
  refine congrArg (· + x7 (ix1 o)) (Finset.sum_congr rfl fun k _ => ?_)
  rw [el, er, h2_apply]
  rfl

/-! ## The softmax over the two logits -/

/-- Row `b`'s reduced index with coordinate `k` put back on the reduced axis is (b, k). -/
theorem lift_row (h : S131072x2.Reduces [1] S131072) (b : Fin 131072) (k : Fin (S131072x2.size 1)) :
    h.lift (ix1 b) k = ix2 b (⟨k.val, k.isLt⟩ : Fin 2) := by
  funext c
  apply Fin.ext
  fin_cases c <;> rfl

/-- The larger logit of row `b`: the fold of the maximum over the row from the word of -∞, then the maximum with that
    word once more, as the reference spells it. -/
theorem rowmax_apply (x0 x1 : (⟨S131072x2x116, .f32⟩ : BufTy).Contents (Elt Ideal)) (x2 : (⟨S464x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x2, .f32⟩ : BufTy).Contents (Elt Ideal)) (x7 : (⟨S2, .f32⟩ : BufTy).Contents (Elt Ideal)) (b : Fin 131072) :
    val_main_v36 (F := Ideal) x0 x1 x2 x3 x4 x5 x6 x7 (ix1 b) = top2 (fun o' : Fin 2 => val_main_v33 (F := Ideal) x0 x1 x2 x3 x4 x5 x6 x7 (ix2 b o')) := by
  have h : S131072x2.Reduces [1] S131072 := by decide
  have hf : (val_main_v33 (F := Ideal) x0 x1 x2 x3 x4 x5 x6 x7 ∘ h.lift (ix1 b)) = fun k : Fin 2 => val_main_v33 (F := Ideal) x0 x1 x2 x3 x4 x5 x6 x7 (ix2 b k) :=
    funext fun k => congrArg (val_main_v33 (F := Ideal) x0 x1 x2 x3 x4 x5 x6 x7) (lift_row h b k)
  rw [val_main_v36_apply, val_main_v35_apply, val_main_cst_6_apply]
  unfold val_main_v34
  rw [Host.reduce_eq_fold_single (FloatOps.maximumf (F := Ideal) (φ := .f32)) (val_main_v33 (F := Ideal) x0 x1 x2 x3 x4 x5 x6 x7)
    (val_main_cst_5 (F := Ideal)) reducesTo_S131072x2_S131072_d1 h h_S_ (ix1 b)]
  unfold top2
  exact congrArg (max (Ideal.ofBits .f32 0xFF800000#32))
    (congrArg (fun f => Finset.fold max (Ideal.ofBits .f32 0xFF800000#32) f (Finset.univ : Finset (Fin 2))) hf)

/-- The exponential of a logit less the larger one. -/
theorem shifted_apply (x0 x1 : (⟨S131072x2x116, .f32⟩ : BufTy).Contents (Elt Ideal)) (x2 : (⟨S464x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x2, .f32⟩ : BufTy).Contents (Elt Ideal)) (x7 : (⟨S2, .f32⟩ : BufTy).Contents (Elt Ideal)) (b : Fin 131072) (o : Fin 2) :
    val_main_v40 (F := Ideal) x0 x1 x2 x3 x4 x5 x6 x7 (ix2 b o) = Ideal.exp (val_main_v33 (F := Ideal) x0 x1 x2 x3 x4 x5 x6 x7 (ix2 b o) - top2 (fun o' : Fin 2 => val_main_v33 (F := Ideal) x0 x1 x2 x3 x4 x5 x6 x7 (ix2 b o'))) := by
  have e : idx_main_v37 (idx_main_v38 (ix2 b o)) = ix1 b :=
    funext fun a => Fin.ext (by match a with | ⟨0, _⟩ => rfl)
  rw [val_main_v40_apply, val_main_v39_apply, val_main_v38_apply, val_main_v37_apply, e, rowmax_apply]
  simp only [Ideal.hostUnary_exp_def, Ideal.subf_def]

/-- The softmax's denominator: the sum of the two exponentials. -/
theorem denom_apply (x0 x1 : (⟨S131072x2x116, .f32⟩ : BufTy).Contents (Elt Ideal)) (x2 : (⟨S464x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x2, .f32⟩ : BufTy).Contents (Elt Ideal)) (x7 : (⟨S2, .f32⟩ : BufTy).Contents (Elt Ideal)) (b : Fin 131072) :
    val_main_v41 (F := Ideal) x0 x1 x2 x3 x4 x5 x6 x7 (ix1 b) = ∑ k : Fin 2, Ideal.exp (val_main_v33 (F := Ideal) x0 x1 x2 x3 x4 x5 x6 x7 (ix2 b k) - top2 (fun o' : Fin 2 => val_main_v33 (F := Ideal) x0 x1 x2 x3 x4 x5 x6 x7 (ix2 b o'))) := by
  have e : ∀ k : Fin 2, idx_main_v41 (ix1 b) k = ix2 b k := fun k =>
    funext fun a => Fin.ext (by match a with | ⟨0, _⟩ => rfl | ⟨1, _⟩ => rfl)
  rw [val_main_v41_apply, val_main_cst_7_apply]
  simp only [Ideal.ofBits_def]
  rw [Ideal.ofBits_zero_f32, zero_add]
  exact Finset.sum_congr rfl fun k _ => by rw [e, shifted_apply]

/-- The reference's result at (b, o) is the softmax of row `b`'s two logits. -/
theorem softmax_apply (x0 x1 : (⟨S131072x2x116, .f32⟩ : BufTy).Contents (Elt Ideal)) (x2 : (⟨S464x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x2, .f32⟩ : BufTy).Contents (Elt Ideal)) (x7 : (⟨S2, .f32⟩ : BufTy).Contents (Elt Ideal)) (b : Fin 131072) (o : Fin 2) :
    val_main_v44 (F := Ideal) x0 x1 x2 x3 x4 x5 x6 x7 (ix2 b o) = softmax2 (fun o' : Fin 2 => val_main_v33 (F := Ideal) x0 x1 x2 x3 x4 x5 x6 x7 (ix2 b o')) o := by
  have e : idx_main_v42 (idx_main_v43 (ix2 b o)) = ix1 b :=
    funext fun a => Fin.ext (by match a with | ⟨0, _⟩ => rfl)
  rw [val_main_v44_apply, val_main_v43_apply, val_main_v42_apply, e, denom_apply, shifted_apply]
  simp only [Ideal.hostDivf_def]
  rfl

/-! ## The reference, element by element -/

/-- Entry (b, o) of the reference's result is output `o` of the row function of row `b`. -/
theorem ref_apply (x0 x1 : (⟨S131072x2x116, .f32⟩ : BufTy).Contents (Elt Ideal)) (x2 : (⟨S464x64, .f32⟩ : BufTy).Contents (Elt Ideal)) (x3 : (⟨S64, .f32⟩ : BufTy).Contents (Elt Ideal)) (x4 : (⟨S64x32, .f32⟩ : BufTy).Contents (Elt Ideal)) (x5 : (⟨S32, .f32⟩ : BufTy).Contents (Elt Ideal)) (x6 : (⟨S32x2, .f32⟩ : BufTy).Contents (Elt Ideal)) (x7 : (⟨S2, .f32⟩ : BufTy).Contents (Elt Ideal)) (b : Fin 131072) (o : Fin 2) :
    val_main_v44 (F := Ideal) x0 x1 x2 x3 x4 x5 x6 x7 (ix2 b o)
      = rowOut (frow x0 b) (frow x1 b) (fun k n => x2 (ix2 (Fin.castAdd 232 k : Fin 464) n)) (fun k n => x2 (ix2 (Fin.natAdd 232 k : Fin 464) n))
          (fun n => x3 (ix1 n)) (fun n p => x4 (ix2 n p)) (fun p => x5 (ix1 p)) (fun p o => x6 (ix2 p o)) (fun o => x7 (ix1 o)) o := by
  rw [softmax_apply]
  unfold rowOut
  exact congrArg (fun l => softmax2 l o) (funext fun o' => logits_apply x0 x1 x2 x3 x4 x5 x6 x7 b o')

end Cert.ReferenceIdeal.RefValue

end
-- ==== Proof.lean ====
/-
  The kernel — a gate of channel means, three dense layers and a two-way softmax over batch blocks of 2048 rows, its first
  layer split into the two inputs' halves — against the jnp reference, which builds the 464 gated features of a row by a
  concatenation and a reshape and multiplies them by the whole first weight matrix.

  At the ideal values both programs compute, for every batch row `b` and output `o`, the row function `rowOut` of the
  row's two inputs and of the weights (`netOut`): the kernel block by block (its blocks tile the result), the reference
  operation by operation. The two differ only where `½ · x` meets `x / 2`, where a logistic meets `1 / (1 + exp (-x))`,
  and where a sum over 464 features meets the sum of two sums over 232 — all three hold on every extended real, so the
  precondition is never opened. The three frames are the generated ones; the idealization rewrote nothing.
-/
import proofs.«101484_j73023033966684_2_alg».proof.Defs
import proofs.«101484_j73023033966684_2_alg».proof.Proof.Gen.Kernel
import proofs.«101484_j73023033966684_2_alg».proof.Proof.Gen.Kernel.Skeleton
import proofs.«101484_j73023033966684_2_alg».proof.Proof.Gen.Kernel.Launch
import proofs.«101484_j73023033966684_2_alg».proof.Proof.Gen.Kernel.Points
import proofs.«101484_j73023033966684_2_alg».proof.Proof.Gen.Kernel.Frame
import proofs.«101484_j73023033966684_2_alg».proof.Proof.Gen.KernelIdeal
import proofs.«101484_j73023033966684_2_alg».proof.Proof.Gen.KernelIdeal.Skeleton
import proofs.«101484_j73023033966684_2_alg».proof.Proof.Gen.KernelIdeal.Launch
import proofs.«101484_j73023033966684_2_alg».proof.Proof.Gen.KernelIdeal.Points
import proofs.«101484_j73023033966684_2_alg».proof.Proof.Gen.KernelIdeal.Frame
import proofs.«101484_j73023033966684_2_alg».proof.Proof.Gen.ReferenceIdeal
import proofs.«101484_j73023033966684_2_alg».proof.Proof.Gen.Pre_finite_inputs
import proofs.«101484_j73023033966684_2_alg».proof.Proof.Gen.KernelIdeal.Value
import proofs.«101484_j73023033966684_2_alg».proof.Proof.Gen.ReferenceIdeal.Run
import proofs.«101484_j73023033966684_2_alg».proof.Proof.Gen.ReferenceIdeal.Read
import proofs.«101484_j73023033966684_2_alg».proof.Proof.KernelArray
import proofs.«101484_j73023033966684_2_alg».proof.Proof.RefRow
import Idealize.ShloMosaic.Adequacy
import Idealize.ShloMosaic.Init

noncomputable section

namespace Cert.Proof

open Idealize.ShloMosaic Idealize.ShloMosaic.TcCoe Idealize.SL.Sem Idealize.ShloMosaic.ValueIdx

/-- The reference's result array is the network function of its argument arrays, entry by entry. -/
theorem reference_eq (x0 x1 : (⟨Cert.ReferenceIdeal.S131072x2x116, .f32⟩ : BufTy).Contents (Elt Ideal))
    (x2 : (⟨Cert.ReferenceIdeal.S464x64, .f32⟩ : BufTy).Contents (Elt Ideal)) (x3 : (⟨Cert.ReferenceIdeal.S64, .f32⟩ : BufTy).Contents (Elt Ideal))
    (x4 : (⟨Cert.ReferenceIdeal.S64x32, .f32⟩ : BufTy).Contents (Elt Ideal)) (x5 : (⟨Cert.ReferenceIdeal.S32, .f32⟩ : BufTy).Contents (Elt Ideal))
    (x6 : (⟨Cert.ReferenceIdeal.S32x2, .f32⟩ : BufTy).Contents (Elt Ideal)) (x7 : (⟨Cert.ReferenceIdeal.S2, .f32⟩ : BufTy).Contents (Elt Ideal)) :
    Cert.ReferenceIdeal.Read.val_main_v44 (F := Ideal) x0 x1 x2 x3 x4 x5 x6 x7 = Cert.GatedMlp.netOut x0 x1 x2 x3 x4 x5 x6 x7 := by
  funext i
  rw [eq_ix2 i]
  exact Cert.ReferenceIdeal.RefValue.ref_apply x0 x1 x2 x3 x4 x5 x6 x7 (i 0) (i 1)

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- From memories that agree on the arguments both programs end with the network function of those arguments in their
    result arrays. -/
theorem algebraic : Cert.algebraic_KernelIdeal_ReferenceIdeal := by
  intro m ρ m' ρ' _ hagree
  refine ⟨fun c => Cert.KernelIdeal.ArrayValue.result m c, Cert.KernelIdeal.ArrayValue.run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7⟩ := hagree c
  rw [Cert.ReferenceIdeal.Read.val_main_v44_eq, reference_eq, a0, a1, a2, a3, a4, a5, a6, a7]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
